-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x262144 : Shape := ⟨2, ![32, 262144]⟩
abbrev S1026x1024 : Shape := ⟨2, ![1026, 1024]⟩
abbrev S_ : Shape := ⟨0, ![]⟩

class Facts : Prop where
  bcast_S_S32x262144 : S_.BroadcastsInDim S32x262144 (![] : Fin 0 → Fin S32x262144.rank)
  reducesTo_S32x262144_S_d0_1 : S32x262144.ReducesTo [0, 1] S_
  h_S_ : 0 < S_.numel
  bcast_S_S1026x1024 : S_.BroadcastsInDim S1026x1024 (![] : Fin 0 → Fin S1026x1024.rank)
  reducesTo_S1026x1024_S_d0_1 : S1026x1024.ReducesTo [0, 1] S_

variable [Facts]

def fn {F : FTy → Type} [FloatOps F] (main_arg0 : FVec F S32x262144 .f32) (main_arg1 : FVec F S1026x1024 .f32) : IVec S_ 1 :=
  let main_v0 : FVec F S32x262144 .f32 := Host.absf main_arg0
  let main_cst : FVec F S_ .f32 := constant S_ .f32 0x7F800000#32
  let main_v1 : FVec F S32x262144 .f32 := broadcastInDim S32x262144 ![] bcast_S_S32x262144 main_cst
  let main_v2 : IVec S32x262144 1 := cmpf .olt main_v0 main_v1
  let main_c : IVec S_ 1 := constantI S_ 1 1#1
  let main_v3 : IVec S_ 1 := (fun x v => Host.reduce IntOp.andi x v reducesTo_S32x262144_S_d0_1 h_S_) main_v2 main_c
  let main_v4 : FVec F S1026x1024 .f32 := Host.absf main_arg1
  let main_cst_0 : FVec F S_ .f32 := constant S_ .f32 0x7F800000#32
  let main_v5 : FVec F S1026x1024 .f32 := broadcastInDim S1026x1024 ![] bcast_S_S1026x1024 main_cst_0
  let main_v6 : IVec S1026x1024 1 := cmpf .olt main_v4 main_v5
  let main_c_1 : IVec S_ 1 := constantI S_ 1 1#1
  let main_v7 : IVec S_ 1 := (fun x v => Host.reduce IntOp.andi x v reducesTo_S1026x1024_S_d0_1 h_S_) main_v6 main_c_1
  let main_v8 : IVec S_ 1 := andi main_v3 main_v7
  main_v8
-- ==== Kernel.lean ====
abbrev S32x262144 : Shape := ⟨2, ![32, 262144]⟩
abbrev S1026x1024 : Shape := ⟨2, ![1026, 1024]⟩
abbrev S_ : Shape := ⟨0, ![]⟩
abbrev S32x1 : Shape := ⟨2, ![32, 1]⟩
abbrev S32x512 : Shape := ⟨2, ![32, 512]⟩
abbrev S32x262656 : Shape := ⟨2, ![32, 262656]⟩
abbrev S32x263168 : Shape := ⟨2, ![32, 263168]⟩
abbrev S32x1028x256 : Shape := ⟨3, ![32, 1028, 256]⟩
abbrev S32x256x1028 : Shape := ⟨3, ![32, 256, 1028]⟩
abbrev S513x1024 : Shape := ⟨2, ![513, 1024]⟩
abbrev S32x513x1025 : Shape := ⟨3, ![32, 513, 1025]⟩
abbrev S1x256x1028 : Shape := ⟨3, ![1, 256, 1028]⟩
abbrev S1x513x1025 : Shape := ⟨3, ![1, 513, 1025]⟩
abbrev S513x1025 : Shape := ⟨2, ![513, 1025]⟩
abbrev S256x1028 : Shape := ⟨2, ![256, 1028]⟩
abbrev S256x1025 : Shape := ⟨2, ![256, 1025]⟩
abbrev S513x256 : Shape := ⟨2, ![513, 256]⟩

abbrev nBuf : Space → Nat
  | .hbm => 19
  | .vmem => 8
  | .smem => 0
  | _ => 0

abbrev bufTy : (tb : Table) → Fin (tcTables nBuf tb) → BufTy
  | .hbm, ⟨0, _⟩ => ⟨S32x262144, .f32⟩
  | .hbm, ⟨1, _⟩ => ⟨S1026x1024, .f32⟩
  | .hbm, ⟨2, _⟩ => ⟨S_, .i32⟩
  | .hbm, ⟨3, _⟩ => ⟨S32x1, .f32⟩
  | .hbm, ⟨4, _⟩ => ⟨S32x512, .f32⟩
  | .hbm, ⟨5, _⟩ => ⟨S32x512, .f32⟩
  | .hbm, ⟨6, _⟩ => ⟨S32x262656, .f32⟩
  | .hbm, ⟨7, _⟩ => ⟨S32x1, .f32⟩
  | .hbm, ⟨8, _⟩ => ⟨S32x512, .f32⟩
  | .hbm, ⟨9, _⟩ => ⟨S32x512, .f32⟩
  | .hbm, ⟨10, _⟩ => ⟨S32x263168, .f32⟩
  | .hbm, ⟨11, _⟩ => ⟨S32x1028x256, .f32⟩
  | .hbm, ⟨12, _⟩ => ⟨S32x256x1028, .f32⟩
  | .hbm, ⟨13, _⟩ => ⟨S32x256x1028, .bf16⟩
  | .hbm, ⟨14, _⟩ => ⟨S513x1024, .f32⟩
  | .hbm, ⟨15, _⟩ => ⟨S513x1024, .bf16⟩
  | .hbm, ⟨16, _⟩ => ⟨S513x1024, .f32⟩
  | .hbm, ⟨17, _⟩ => ⟨S513x1024, .bf16⟩
  | .hbm, ⟨18, _⟩ => ⟨S32x513x1025, .f32⟩
  | .local _ .vmem, ⟨0, _⟩ => ⟨S1x256x1028, .bf16⟩
  | .local _ .vmem, ⟨1, _⟩ => ⟨S1x256x1028, .bf16⟩
  | .local _ .vmem, ⟨2, _⟩ => ⟨S513x1024, .bf16⟩
  | .local _ .vmem, ⟨3, _⟩ => ⟨S513x1024, .bf16⟩
  | .local _ .vmem, ⟨4, _⟩ => ⟨S1x513x1025, .f32⟩
  | .local _ .vmem, ⟨5, _⟩ => ⟨S1x513x1025, .f32⟩
  | .local _ .vmem, ⟨6, _⟩ => ⟨S513x1025, .f32⟩
  | .local _ .vmem, ⟨7, _⟩ => ⟨S513x1025, .f32⟩
  | _, _ => ⟨S32x262144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1028 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S513x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S513x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x513x1025 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S32x262144_S32x1_0_0 : S32x262144.Slices ![0, 0] S32x1
  slices_S32x262144_S32x512_0_1 : S32x262144.Slices ![0, 1] S32x512
  concatenates_S32x512_S32x262144_S32x262656_d1 : Shape.Concatenates [S32x512, S32x262144] S32x262656 1
  slices_S32x262656_S32x1_0_262655 : S32x262656.Slices ![0, 262655] S32x1
  slices_S32x262656_S32x512_0_262143 : S32x262656.Slices ![0, 262143] S32x512
  concatenates_S32x262656_S32x512_S32x263168_d1 : Shape.Concatenates [S32x262656, S32x512] S32x263168 1
  shapeCasts_S32x263168_S32x1028x256 : S32x263168.ShapeCasts S32x1028x256
  transposes_S32x1028x256_S32x256x1028_0_2_1 : S32x1028x256.Transposes [0, 2, 1] S32x256x1028
  bitsLt_bf16_f32 : FTy.bits .bf16 < FTy.bits .f32
  slices_S1026x1024_S513x1024_0_0 : S1026x1024.Slices ![0, 0] S513x1024
  slices_S1026x1024_S513x1024_513_0 : S1026x1024.Slices ![513, 0] S513x1024
  inb_S513x1025_S513x1025_0_0 : ∀ a, (![0, 0] : Fin 2 → Nat) a + S513x1025.size a ≤ S513x1025.size a
  h_S513x1025 : 0 < S513x1025.numel
  shapeCasts_S513x1025_S513x1025 : S513x1025.ShapeCasts S513x1025
  inb_S1x256x1028_S1x256x1028_0_0_0 : ∀ a, (![0, 0, 0] : Fin 3 → Nat) a + S1x256x1028.size a ≤ S1x256x1028.size a
  h_S1x256x1028 : 0 < S1x256x1028.numel
  shapeCasts_S1x256x1028_S256x1028 : S1x256x1028.ShapeCasts S256x1028
  inb_S513x1024_S513x1024_0_0 : ∀ a, (![0, 0] : Fin 2 → Nat) a + S513x1024.size a ≤ S513x1024.size a
  h_S513x1024 : 0 < S513x1024.numel
  shapeCasts_S513x1024_S513x1024 : S513x1024.ShapeCasts S513x1024
  slices_S256x1028_o0_0_S256x1025 : S256x1028.Slices ![0, 0] S256x1025
  slices_S513x1024_o0_0_S513x256 : S513x1024.Slices ![0, 0] S513x256
  rotates_S256x1028_d1 : S256x1028.Rotates 1 none
  slices_S513x1024_o0_256_S513x256 : S513x1024.Slices ![0, 256] S513x256
  slices_S513x1024_o0_512_S513x256 : S513x1024.Slices ![0, 512] S513x256
  slices_S513x1024_o0_768_S513x256 : S513x1024.Slices ![0, 768] S513x256
  inb_S1x513x1025_S1x513x1025_0_0_0 : ∀ a, (![0, 0, 0] : Fin 3 → Nat) a + S1x513x1025.size a ≤ S1x513x1025.size a
  h_S1x513x1025 : 0 < S1x513x1025.numel
  shapeCasts_S1x513x1025_S513x1025 : S1x513x1025.ShapeCasts S513x1025
  shapeCasts_S513x1025_S1x513x1025 : S513x1025.ShapeCasts S1x513x1025
  dot_S513x256_S256x1025_S513x1025_1_0_0_1_n_n_wf : DotDims.WF S513x256 S256x1025 S513x1025 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1028.size a ≤ S32x256x1028.size a
  hwx0_0 : ∀ i : grid0.Coords, EltTy.bits .bf16 = 32 ∨ (Rect.block (s := S32x256x1028) S1x256x1028.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S513x1024.size a ≤ S513x1024.size a
  hwx0_1 : ∀ i : grid0.Coords, EltTy.bits .bf16 = 32 ∨ (Rect.block (s := S513x1024) S513x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S513x1024.size a ≤ S513x1024.size a
  hwx0_2 : ∀ i : grid0.Coords, EltTy.bits .bf16 = 32 ∨ (Rect.block (s := S513x1024) S513x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x513x1025.size a ≤ S32x513x1025.size a
  hwx0_3 : ∀ i : grid0.Coords, EltTy.bits .f32 = 32 ∨ (Rect.block (s := S32x513x1025) S1x513x1025.size (cc0_transform_3 i) (hinb0_3 i)).WholeWords (EltTy.packing .f32)

variable [Facts₀]

def dot_S513x256_S256x1025_S513x1025_1_0_0_1_n_n : DotDims S513x256 S256x1025 S513x1025 where
  lhsContracting := [1]
  rhsContracting := [0]
  lhsNonContracting := [0]
  rhsNonContracting := [1]
  lhsBatch := []
  rhsBatch := []
  wf := dot_S513x256_S256x1025_S513x1025_1_0_0_1_n_n_wf

abbrev win0_0 : Pipeline.Window sig grid0 :=
  Pipeline.Window.ofSpec (Memref.whole main_v3) S1x256x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S513x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S513x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x513x1025.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x262144 : Shape := ⟨2, ![32, 262144]⟩
abbrev S1026x1024 : Shape := ⟨2, ![1026, 1024]⟩
abbrev S_ : Shape := ⟨0, ![]⟩
abbrev S32x1 : Shape := ⟨2, ![32, 1]⟩
abbrev S32x512 : Shape := ⟨2, ![32, 512]⟩
abbrev S32x262656 : Shape := ⟨2, ![32, 262656]⟩
abbrev S32x263168 : Shape := ⟨2, ![32, 263168]⟩
abbrev S1025 : Shape := ⟨1, ![1025]⟩
abbrev S1025x1 : Shape := ⟨2, ![1025, 1]⟩
abbrev S1024 : Shape := ⟨1, ![1024]⟩
abbrev S1x1024 : Shape := ⟨2, ![1, 1024]⟩
abbrev S1025x1024 : Shape := ⟨2, ![1025, 1024]⟩
abbrev S1025x1024x1 : Shape := ⟨3, ![1025, 1024, 1]⟩
abbrev S32x1025x1024 : Shape := ⟨3, ![32, 1025, 1024]⟩
abbrev S1026x32x1025 : Shape := ⟨3, ![1026, 32, 1025]⟩
abbrev S32x1026x1025 : Shape := ⟨3, ![32, 1026, 1025]⟩
abbrev S32x513x1025 : Shape := ⟨3, ![32, 513, 1025]⟩

abbrev nBuf : Space → Nat
  | .hbm => 38
  | .vmem => 0
  | .smem => 0
  | _ => 0

abbrev bufTy : (tb : Table) → Fin (tcTables nBuf tb) → BufTy
  | .hbm, ⟨0, _⟩ => ⟨S32x262144, .f32⟩
  | .hbm, ⟨1, _⟩ => ⟨S1026x1024, .f32⟩
  | .hbm, ⟨2, _⟩ => ⟨S_, .i32⟩
  | .hbm, ⟨3, _⟩ => ⟨S32x1, .f32⟩
  | .hbm, ⟨4, _⟩ => ⟨S32x512, .f32⟩
  | .hbm, ⟨5, _⟩ => ⟨S32x512, .f32⟩
  | .hbm, ⟨6, _⟩ => ⟨S32x262656, .f32⟩
  | .hbm, ⟨7, _⟩ => ⟨S32x1, .f32⟩
  | .hbm, ⟨8, _⟩ => ⟨S32x512, .f32⟩
  | .hbm, ⟨9, _⟩ => ⟨S32x512, .f32⟩
  | .hbm, ⟨10, _⟩ => ⟨S32x263168, .f32⟩
  | .hbm, ⟨11, _⟩ => ⟨S1025, .i32⟩
  | .hbm, ⟨12, _⟩ => ⟨S1025x1, .i32⟩
  | .hbm, ⟨13, _⟩ => ⟨S_, .i32⟩
  | .hbm, ⟨14, _⟩ => ⟨S1025x1, .i32⟩
  | .hbm, ⟨15, _⟩ => ⟨S1025x1, .i32⟩
  | .hbm, ⟨16, _⟩ => ⟨S1024, .i32⟩
  | .hbm, ⟨17, _⟩ => ⟨S1x1024, .i32⟩
  | .hbm, ⟨18, _⟩ => ⟨S1025x1024, .i32⟩
  | .hbm, ⟨19, _⟩ => ⟨S1025x1024, .i32⟩
  | .hbm, ⟨20, _⟩ => ⟨S1025x1024, .i32⟩
  | .hbm, ⟨21, _⟩ => ⟨S_, .i32⟩
  | .hbm, ⟨22, _⟩ => ⟨S1025x1024, .i32⟩
  | .hbm, ⟨23, _⟩ => ⟨S1025x1024, .i1⟩
  | .hbm, ⟨24, _⟩ => ⟨S_, .i32⟩
  | .hbm, ⟨25, _⟩ => ⟨S1025x1024, .i32⟩
  | .hbm, ⟨26, _⟩ => ⟨S1025x1024, .i32⟩
  | .hbm, ⟨27, _⟩ => ⟨S1025x1024, .i32⟩
  | .hbm, ⟨28, _⟩ => ⟨S1025x1024x1, .i32⟩
  | .hbm, ⟨29, _⟩ => ⟨S32x1025x1024, .f32⟩
  | .hbm, ⟨30, _⟩ => ⟨S1026x32x1025, .f32⟩
  | .hbm, ⟨31, _⟩ => ⟨S32x1026x1025, .f32⟩
  | .hbm, ⟨32, _⟩ => ⟨S32x513x1025, .f32⟩
  | .hbm, ⟨33, _⟩ => ⟨S32x513x1025, .f32⟩
  | .hbm, ⟨34, _⟩ => ⟨S32x513x1025, .f32⟩
  | .hbm, ⟨35, _⟩ => ⟨S32x513x1025, .f32⟩
  | .hbm, ⟨36, _⟩ => ⟨S32x513x1025, .f32⟩
  | .hbm, ⟨37, _⟩ => ⟨S32x513x1025, .f32⟩
  | _, _ => ⟨S32x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  slices_S32x262144_S32x1_0_0 : S32x262144.Slices ![0, 0] S32x1
  slices_S32x262144_S32x512_0_1 : S32x262144.Slices ![0, 1] S32x512
  concatenates_S32x512_S32x262144_S32x262656_d1 : Shape.Concatenates [S32x512, S32x262144] S32x262656 1
  slices_S32x262656_S32x1_0_262655 : S32x262656.Slices ![0, 262655] S32x1
  slices_S32x262656_S32x512_0_262143 : S32x262656.Slices ![0, 262143] S32x512
  concatenates_S32x262656_S32x512_S32x263168_d1 : Shape.Concatenates [S32x262656, S32x512] S32x263168 1
  bcast_S1025_S1025x1_0 : S1025.BroadcastsInDim S1025x1 (![0] : Fin 1 → Fin S1025x1.rank)
  bcast_S_S1025x1 : S_.BroadcastsInDim S1025x1 (![] : Fin 0 → Fin S1025x1.rank)
  bcast_S1024_S1x1024_1 : S1024.BroadcastsInDim S1x1024 (![1] : Fin 1 → Fin S1x1024.rank)
  bcast_S1025x1_S1025x1024_0_1 : S1025x1.BroadcastsInDim S1025x1024 (![0, 1] : Fin 2 → Fin S1025x1024.rank)
  bcast_S1x1024_S1025x1024_0_1 : S1x1024.BroadcastsInDim S1025x1024 (![0, 1] : Fin 2 → Fin S1025x1024.rank)
  bcast_S_S1025x1024 : S_.BroadcastsInDim S1025x1024 (![] : Fin 0 → Fin S1025x1024.rank)
  bcast_S1025x1024_S1025x1024x1_0_1 : S1025x1024.BroadcastsInDim S1025x1024x1 (![0, 1] : Fin 2 → Fin S1025x1024x1.rank)
  transposes_S1026x32x1025_S32x1026x1025_1_0_2 : S1026x32x1025.Transposes [1, 0, 2] S32x1026x1025
  slices_S32x1026x1025_S32x513x1025_0_0_0 : S32x1026x1025.Slices ![0, 0, 0] S32x513x1025
  slices_S32x1026x1025_S32x513x1025_0_513_0 : S32x1026x1025.Slices ![0, 513, 0] S32x513x1025
  gather_S32x263168_S1025x1024x1_S32x1025x1024_0_1_n_n_1_2_321_wf : GatherDims.WF S32x263168 S1025x1024x1 S32x1025x1024 [0] [1] [] [1] [] 2 ![32, 1]
  dot_S1026x1024_S32x1025x1024_S1026x32x1025_1_2_0_01_n_n_wf : DotDims.WF S1026x1024 S32x1025x1024 S1026x32x1025 [1] [2] [0] [0, 1] [] []

variable [Facts₀]

def gather_S32x263168_S1025x1024x1_S32x1025x1024_0_1_n_n_1_2_321 : GatherDims S32x263168 S1025x1024x1 S32x1025x1024 where
  offsetDims := [0]
  collapsedSliceDims := [1]
  operandBatchingDims := []
  startIndicesBatchingDims := []
  startIndexMap := [1]
  indexVectorDim := 2
  sliceSizes := ![32, 1]
  wf := gather_S32x263168_S1025x1024x1_S32x1025x1024_0_1_n_n_1_2_321_wf
def dot_S1026x1024_S32x1025x1024_S1026x32x1025_1_2_0_01_n_n : DotDims S1026x1024 S32x1025x1024 S1026x32x1025 where
  lhsContracting := [1]
  rhsContracting := [2]
  lhsNonContracting := [0]
  rhsNonContracting := [0, 1]
  lhsBatch := []
  rhsBatch := []
  wf := dot_S1026x1024_S32x1025x1024_S1026x32x1025_1_2_0_01_n_n_wf

class Facts : Prop extends Facts₀ where

variable [Facts]
-- ==== Proof.LibCoveredLoad.lean ====
/-
  A load of a whole buffer after a store that covered all of it.

  A buffer's contents are kept as the list of the stores made into it, newest first, each a rectangle and the
  values put there.  If the newest store covered the whole buffer, then a load of the whole buffer reads exactly the
  values of that store, whatever the older stores were: an accumulator that is overwritten whole and then read back.
-/
import Idealize.ShloMosaic.Lib.Pipeline.Value

noncomputable section

namespace Idealize.ShloMosaic.View

variable {Val : EltTy → Type} {S : Shape} {e : EltTy}

/-- The whole-buffer load after a newest store through the whole-buffer rectangle reads that store's values. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons.mpr (Or.inl rfl), by
    show y ∈ (Rect.whole S).set; rw [Rect.set_whole]; exact Finset.mem_univ y⟩), canon_cons_unit_zero rfl, ld_unit_zero rfl]

end Idealize.ShloMosaic.View

end
-- ==== Proof.KBody.lean ====
/-
  What one grid point's body leaves in the output block, as one pure term of the three blocks it loads.

  The body keeps two accumulators of shape [513, 1025], one for the real and one for the imaginary rows of the basis.
  Each is zeroed, then four times read back whole, added to one product, and stored whole again; after the fourth
  store both are read back whole and combined into the output block `sqrt (re * re + im * im)`.  Every store covers its
  whole buffer, so each whole-buffer load reads exactly the newest store's values: the chain of loads and stores
  collapses to the nested term below (`accRe`, `accIm`, `blockOut`), whatever the float instance.
-/
import proofs.«150967_j42271068127681_2_alg».proof.Proof.Gen.KernelIdeal.Frame
import proofs.«150967_j42271068127681_2_alg».proof.Proof.LibCoveredLoad

set_option maxRecDepth 16384

noncomputable section

namespace Cert.KernelIdeal.Stft

open Cert.KernelIdeal Cert.KernelIdeal.Gen
open Idealize.ShloMosaic Idealize.ShloMosaic.TcCoe Idealize.ShloMosaic.Tactic Idealize.SL.Sem

variable {F : FTy → Type} [FloatOps F]

/-- The real accumulator after its four products: zero, plus the product of basis columns 0–255 with the block,
    plus columns 256–511 with the block shifted by one chunk, plus 512–767 shifted by two, plus 768–1023 shifted by three. -/
def accRe (x0 : Vec F S1x256x1028 .bf16) (x1 : Vec F S513x1024 .bf16) : FVec F S513x1025 .f32 :=
  k0_pay1 (k0_pay18 (k0_pay6 x0)) (k0_pay19 (k0_pay7 x1))
    (k0_pay16 (k0_pay6 x0) (k0_pay7 x1)
      (k0_pay13 (k0_pay7 x1) (k0_pay12 x0)
        (k0_pay10 x0 x1 k0_pay4)))

/-- The imaginary accumulator after its four products, the same with the imaginary rows of the basis. -/
def accIm (x0 : Vec F S1x256x1028 .bf16) (x2 : Vec F S513x1024 .bf16) : FVec F S513x1025 .f32 :=
  k0_pay2 (k0_pay18 (k0_pay6 x0)) (k0_pay20 (k0_pay8 x2))
    (k0_pay17 (k0_pay6 x0) (k0_pay8 x2)
      (k0_pay14 (k0_pay8 x2) (k0_pay12 x0)
        (k0_pay11 x0 x2 k0_pay5)))

/-- The output block: the magnitude of the two accumulators, entry by entry. -/
def blockOut (x0 : Vec F S1x256x1028 .bf16) (x1 x2 : Vec F S513x1024 .bf16) : FVec F S1x513x1025 .f32 :=
  k0_pay3 (accRe x0 x1) (accIm x0 x2)

theorem zeros2 : (![0, 0] : Fin 2 → Nat) = fun _ => 0 := by
  funext a; match a with | ⟨0, _⟩ => rfl | ⟨1, _⟩ => rfl

theorem zeros3 : (![0, 0, 0] : Fin 3 → Nat) = fun _ => 0 := by
  funext a; match a with | ⟨0, _⟩ => rfl | ⟨1, _⟩ => rfl | ⟨2, _⟩ => rfl

/-- What the body's run leaves in the output's staging buffer is `blockOut` of the three loaded blocks. -/
theorem out_eq (c : Dev nD) (i : grid0.Coords) (arg1 : Memref sig .tc .vmem S1x256x1028 .bf16) (harg1 : arg1.IsWhole) (arg2 : Memref sig .tc .vmem S513x1024 .bf16) (harg2 : arg2.IsWhole) (arg3 : Memref sig .tc .vmem S513x1024 .bf16) (harg3 : arg3.IsWhole) (arg4 : Memref sig .tc .vmem S1x513x1025 .f32) (harg4 : arg4.IsWhole) (arg5 : Memref sig .tc .vmem S513x1025 .f32) (harg5 : arg5.IsWhole) (arg6 : Memref sig .tc .vmem S513x1025 .f32) (harg6 : arg6.IsWhole)
    (x0 : Vec F S1x256x1028 .bf16) (x1 : Vec F S513x1024 .bf16) (x2 : Vec F S513x1024 .bf16) :
    out0_A_3 c i arg1 harg1 arg2 harg2 arg3 harg3 arg4 harg4 arg5 harg5 arg6 harg6 x0 x1 x2 = blockOut x0 x1 x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero zeros3]
  simp only [View.readCov_cons_unit_zero (S := S513x1025) _ zeros2, View.readCov_unit_zero (S := S513x1025) _ zeros2, View.readAt_eq_ld,
    harg1.read_unread, harg2.read_unread, harg3.read_unread,
    View.ld_unit_zero (S := S1x256x1028) zeros3, View.ld_unit_zero (S := S513x1024) zeros2]
  rfl

end Cert.KernelIdeal.Stft

end
-- ==== Proof.LibBlockedSum.lean ====
/-
  A finite sum taken block by block: an axis of `n = nb · bs` positions cut into `nb` consecutive blocks of `bs`.

  `blkIdx hn bs k q` is position `q` of block `k` (that is `bs · k + q`), `blockSum hn bs g k` the sum of `g` over block
  `k`, and `partialSum hn bs g k` the sum over the blocks `0 … k`.  In any commutative monoid the partial sums obey the
  recurrence of an accumulator that adds one block per step (`partialSum_zero`, `partialSum_succ`), and the partial
  sum after the last block is the sum over the whole axis (`partialSum_last`): the pairs (block, position in the
  block) enumerate the axis exactly once.  Only associativity and commutativity of the addition are used, so all of
  this holds on the extended reals as it stands, with no finiteness assumption.  This is the arithmetic of a matrix
  product whose contracted axis is visited block by block into an accumulator.
-/
import Mathlib.Algebra.BigOperators.Fin
import Mathlib.Algebra.BigOperators.Intervals
import Mathlib.Logic.Equiv.Fin.Basic

namespace BlockedSum

/-- Position `q` of block `k` on an axis of `n` positions cut into blocks of `bs` (reduced modulo `n` so that it is a
    position for every `k`; for a block that exists nothing is reduced: `blkIdx_val`). -/
def blkIdx {n : ℕ} (hn : 0 < n) (bs : ℕ) (k : ℕ) (q : Fin bs) : Fin n := ⟨(bs * k + q.val) % n, Nat.mod_lt _ hn⟩

theorem blkIdx_val {n nb bs : ℕ} (hn : 0 < n) (h : nb * bs = n) {k : ℕ} (hk : k < nb) (q : Fin bs) :
    (blkIdx hn bs k q).val = bs * k + q.val := by
  show (bs * k + q.val) % n = _
  apply Nat.mod_eq_of_lt
  have hq := q.isLt
  calc bs * k + q.val < bs * k + bs := by omega
    _ = bs * (k + 1) := (Nat.mul_succ bs k).symm
    _ ≤ bs * nb := Nat.mul_le_mul_left bs hk
    _ = n := by rw [Nat.mul_comm]; exact h

/-- The pairs (block, position in the block) are the positions of the axis. -/
def blkEquiv {n nb bs : ℕ} (h : nb * bs = n) : Fin nb × Fin bs ≃ Fin n := finProdFinEquiv.trans (finCongr h)

theorem blkEquiv_apply {n nb bs : ℕ} (hn : 0 < n) (h : nb * bs = n) (k : Fin nb) (q : Fin bs) :
    blkEquiv h (k, q) = blkIdx hn bs k.val q := by
  apply Fin.ext
  rw [blkIdx_val hn h k.isLt]
  show q.val + bs * k.val = _
  omega

variable {M : Type*} [AddCommMonoid M] {n : ℕ}

/-- The sum of `g` over block `k`. -/
def blockSum (hn : 0 < n) (bs : ℕ) (g : Fin n → M) (k : ℕ) : M := ∑ q : Fin bs, g (blkIdx hn bs k q)

/-- The sum of `g` over the blocks `0 … k`. -/
def partialSum (hn : 0 < n) (bs : ℕ) (g : Fin n → M) (k : ℕ) : M := ∑ k' ∈ Finset.range (k + 1), blockSum hn bs g k'

theorem partialSum_zero (hn : 0 < n) (bs : ℕ) (g : Fin n → M) : partialSum hn bs g 0 = blockSum hn bs g 0 := by
  unfold partialSum
  rw [Finset.sum_range_one]

theorem partialSum_succ (hn : 0 < n) (bs : ℕ) (g : Fin n → M) (k : ℕ) :
    partialSum hn bs g (k + 1) = partialSum hn bs g k + blockSum hn bs g (k + 1) := by
  unfold partialSum
  rw [Finset.sum_range_succ]

/-- All the blocks together are the whole axis. -/
theorem partialSum_last {nb bs : ℕ} (hn : 0 < n) (h : nb * bs = n) (g : Fin n → M) {k : ℕ} (hk : k + 1 = nb) :
    partialSum hn bs g k = ∑ i : Fin n, g i := by
  unfold partialSum
  rw [hk]
  calc ∑ k' ∈ Finset.range nb, blockSum hn bs g k'
      = ∑ k' : Fin nb, blockSum hn bs g k'.val := (Fin.sum_univ_eq_sum_range (fun k' => blockSum hn bs g k') nb).symm
    _ = ∑ k' : Fin nb, ∑ q : Fin bs, g (blkEquiv h (k', q)) := by simp only [blockSum, blkEquiv_apply hn h]
    _ = ∑ p : Fin nb × Fin bs, g (blkEquiv h p) := (Fintype.sum_prod_type (fun p : Fin nb × Fin bs => g (blkEquiv h p))).symm
    _ = ∑ i : Fin n, g i := (blkEquiv h).sum_comp g

end BlockedSum
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.KEntry.lean ====
/-
  The output block of one grid point read entry by entry, over the extended reals.

  The point's signal block `X` has shape [1, 256, 1028]: entry `(0, h, j)` is position `h` of chunk `j` (a chunk is 256
  consecutive entries of the padded row).  A basis block `B` has shape [513, 1024].  The body adds four products into an
  accumulator that starts at zero: for `k = 0, 1, 2, 3` the columns `256·k … 256·k + 255` of `B` against the block
  rotated left by `k` chunks (a rotation by `1028 - k` to the right), of which only chunks `0 … 1024` are used, so no
  wrapped chunk is ever read.  Entry `(c, t)` of the accumulator is therefore the sum over `k` and `h` of
  `B (c, 256·k + h) · X (0, h, t + k)`, and the pairs `(k, h)` enumerate the 1024 columns `n = 256·k + h` once:
  the accumulator is `∑ n, B (c, n) · X (0, n mod 256, t + n div 256)` (`blockCoeff`).  Only associativity and
  commutativity of the extended reals' addition are used.
-/
import proofs.«150967_j42271068127681_2_alg».proof.Proof.KBody
import proofs.«150967_j42271068127681_2_alg».proof.Proof.LibBlockedSum
import proofs.«150967_j42271068127681_2_alg».proof.Proof.LibPlainMatmul
import Idealize.ShloMosaic.Lib.ValueLayout
import Idealize.ShloMosaic.Lib.KernelVsHost
import Idealize.ShloMosaic.PureOps.Ideal.Laws

noncomputable section

open scoped BigOperators

namespace Cert.KernelIdeal.Stft

open Cert.KernelIdeal Cert.KernelIdeal.Gen
open Idealize.ShloMosaic Idealize.ShloMosaic.ValueIdx

/-- Column `256·k + q` of a basis block: column `q` of its `k`-th group of 256. -/
abbrev col (k : Fin 4) (q : Fin 256) : Fin 1024 := ⟨256 * k.val + q.val, by have := k.isLt; have := q.isLt; omega⟩
/-- Chunk `t + k` of the signal block. -/
abbrev chunkAt (t : Fin 1025) (k : Fin 4) : Fin 1028 := ⟨t.val + k.val, by have := k.isLt; have := t.isLt; omega⟩

/-- Row `c` of a basis block against frame `t` of the signal block: column `n` meets position `n mod 256` of chunk
    `t + n div 256`. -/
def blockCoeff (X : FVec Ideal S1x256x1028 .bf16) (B : FVec Ideal S513x1024 .bf16) (c : Fin 513) (t : Fin 1025) : EReal :=
  ∑ n : Fin 1024, (B (ix2 c n) * X (ix3 (0 : Fin 1) (⟨n.val % 256, Nat.mod_lt _ (by norm_num)⟩ : Fin 256)
    (⟨t.val + n.val / 256, by have := t.isLt; have := n.isLt; omega⟩ : Fin 1028)) : EReal)

/-- The block with its unit axis dropped. -/
theorem chunks_apply (X : FVec Ideal S1x256x1028 .bf16) (h : Fin 256) (j : Fin 1028) :
    k0_pay6 X (ix2 h j) = X (ix3 (0 : Fin 1) h j) := by
  unfold k0_pay6
  exact shapeCast_1ab_ab_apply X _ h j

/-- A block rotated right by `1028 - k` chunks and cut to its first 1025 chunks holds, at chunk `t`, chunk `t + k`. -/
theorem rolled_apply (Y : FVec Ideal S256x1028 .bf16) (s : BitVec 32) (k : Fin 4) (hs : s.toNat = 1028 - k.val)
    (h : Fin 256) (t : Fin 1025) :
    extractStridedSlice S256x1025 ![0, 0] (dynamicRotate 1 s none Y rotates_S256x1028_d1) slices_S256x1028_o0_0_S256x1025 (ix2 h t)
      = Y (ix2 h (chunkAt t k)) := by
  refine (slice2_axis1_apply 0 _ _ h t (⟨t.val, by have := t.isLt; omega⟩ : Fin 1028) (by simp)).trans ?_
  refine dynamicRotate_apply 1 s Y _ _ _ (fun b => ?_)
  match b with
  | ⟨0, _⟩ => rfl
  | ⟨1, _⟩ =>
    show t.val + k.val = (t.val + 1028 - s.toNat % 1028) % 1028
    have := k.isLt; have := t.isLt
    rw [hs]; omega

/-- A group of 256 columns of a basis block. -/
theorem cols_apply (B : FVec Ideal S513x1024 .bf16) (k : Fin 4) (hsl : S513x1024.Slices ![0, 256 * k.val] S513x256)
    (c : Fin 513) (q : Fin 256) :
    extractStridedSlice S513x256 ![0, 256 * k.val] B hsl (ix2 c q) = B (ix2 c (col k q)) :=
  slice2_axis1_apply (256 * k.val) B hsl c q (col k q) rfl

/-- A product into the zero accumulator, at `(c, t)`: the sum over the shared axis. -/
theorem product_apply (L : FVec Ideal S513x256 .bf16) (R : FVec Ideal S256x1025 .bf16) (c : Fin 513) (t : Fin 1025) :
    matmul dot_S513x256_S256x1025_S513x1025_1_0_0_1_n_n none L R (constant (F := Ideal) S513x1025 .f32 0x00000000#32) (ix2 c t)
      = ∑ h : Fin 256, L (ix2 c h) * R (ix2 h t) :=
  Cert.PointConv.plainMatmul_zero_apply dot_S513x256_S256x1025_S513x1025_1_0_0_1_n_n_wf none L R c t

/-- One accumulation step, at `(c, t)`: what was there plus the product. -/
theorem step_apply (A : FVec Ideal S513x1025 .f32) (L : FVec Ideal S513x256 .bf16) (R : FVec Ideal S256x1025 .bf16)
    (hc : S513x1025.ShapeCasts S513x1025) (c : Fin 513) (t : Fin 1025) :
    shapeCast S513x1025 (addf A (matmul dot_S513x256_S256x1025_S513x1025_1_0_0_1_n_n none L R
      (constant (F := Ideal) S513x1025 .f32 0x00000000#32))) hc (ix2 c t)
      = A (ix2 c t) + ∑ h : Fin 256, L (ix2 c h) * R (ix2 h t) := by
  rw [shapeCast_self]
  exact congrArg (A (ix2 c t) + ·) (product_apply L R c t)

/-- The zeroed accumulator. -/
theorem zero_apply (c : Fin 513) (t : Fin 1025) : k0_pay4 (F := Ideal) (ix2 c t) = 0 := by
  show shapeCast S513x1025 (broadcast S513x1025 (Scalar.ofBits (F := Ideal) .f32 0x00000000#32)) _ (ix2 c t) = 0
  rw [shapeCast_self]
  exact Ideal.ofBits_zero_f32

/-- A basis block through the identity cast. -/
theorem basis_cast (B : FVec Ideal S513x1024 .bf16) : k0_pay7 B = B := by
  unfold k0_pay7
  exact shapeCast_self B _

/-- The unshifted chunks `0 … 1024`. -/
theorem shift0_apply (X : FVec Ideal S1x256x1028 .bf16) (h : Fin 256) (t : Fin 1025) :
    k0_pay9 X (ix2 h t) = X (ix3 (0 : Fin 1) h (chunkAt t 0)) := by
  unfold k0_pay9
  refine (slice2_axis1_apply 0 _ _ h t (chunkAt t 0) (by simp)).trans ?_
  exact chunks_apply X h _

/-- The chunks shifted by one. -/
theorem shift1_apply (X : FVec Ideal S1x256x1028 .bf16) (h : Fin 256) (t : Fin 1025) :
    k0_pay12 X (ix2 h t) = X (ix3 (0 : Fin 1) h (chunkAt t 1)) := by
  unfold k0_pay12
  refine (rolled_apply (k0_pay6 X) 1027#32 1 (by decide) h t).trans ?_
  exact chunks_apply X h _

/-- The chunks shifted by two. -/
theorem shift2_apply (X : FVec Ideal S1x256x1028 .bf16) (h : Fin 256) (t : Fin 1025) :
    k0_pay15 (k0_pay6 X) (ix2 h t) = X (ix3 (0 : Fin 1) h (chunkAt t 2)) := by
  unfold k0_pay15
  refine (rolled_apply (k0_pay6 X) 1026#32 2 (by decide) h t).trans ?_
  exact chunks_apply X h _

/-- The chunks shifted by three. -/
theorem shift3_apply (X : FVec Ideal S1x256x1028 .bf16) (h : Fin 256) (t : Fin 1025) :
    k0_pay18 (k0_pay6 X) (ix2 h t) = X (ix3 (0 : Fin 1) h (chunkAt t 3)) := by
  unfold k0_pay18
  refine (rolled_apply (k0_pay6 X) 1025#32 3 (by decide) h t).trans ?_
  exact chunks_apply X h _

/-- The last group of 256 columns. -/
theorem cols3_apply (B : FVec Ideal S513x1024 .bf16) (c : Fin 513) (q : Fin 256) :
    k0_pay19 B (ix2 c q) = B (ix2 c (col 3 q)) := by
  unfold k0_pay19
  exact cols_apply B 3 slices_S513x1024_o0_768_S513x256 c q

/-- The product of column group `k` with the block shifted by `k` chunks, at `(c, t)`. -/
def groupSum (X : FVec Ideal S1x256x1028 .bf16) (B : FVec Ideal S513x1024 .bf16) (c : Fin 513) (t : Fin 1025) (k : Fin 4) : EReal :=
  ∑ h : Fin 256, (B (ix2 c (col k h)) * X (ix3 (0 : Fin 1) h (chunkAt t k)) : EReal)

/-- The accumulator after the four steps, at `(c, t)`: zero plus the four group sums, in the order they were added. -/
theorem accRe_steps (X : FVec Ideal S1x256x1028 .bf16) (B : FVec Ideal S513x1024 .bf16) (c : Fin 513) (t : Fin 1025) :
    accRe (F := Ideal) X B (ix2 c t) = (((0 + groupSum X B c t 0) + groupSum X B c t 1) + groupSum X B c t 2) + groupSum X B c t 3 := by
  unfold accRe
  rw [basis_cast]
  refine (step_apply _ _ _ _ c t).trans ?_
  refine congrArg₂ (· + ·) ?_ (Finset.sum_congr rfl fun h _ => congrArg₂ (· * ·) (cols3_apply B c h) (shift3_apply X h t))
  refine (step_apply _ _ _ _ c t).trans ?_
  refine congrArg₂ (· + ·) ?_ (Finset.sum_congr rfl fun h _ =>
    congrArg₂ (· * ·) (cols_apply B 2 slices_S513x1024_o0_512_S513x256 c h) (shift2_apply X h t))
  refine (step_apply _ _ _ _ c t).trans ?_
  refine congrArg₂ (· + ·) ?_ (Finset.sum_congr rfl fun h _ =>
    congrArg₂ (· * ·) (cols_apply B 1 slices_S513x1024_o0_256_S513x256 c h) (shift1_apply X h t))
  refine (step_apply _ _ _ _ c t).trans ?_
  refine congrArg₂ (· + ·) (zero_apply c t) (Finset.sum_congr rfl fun h _ => congrArg₂ (· * ·) ?_ (shift0_apply X h t))
  rw [basis_cast]
  exact cols_apply B 0 slices_S513x1024_o0_0_S513x256 c h

/-- The four group sums are the one sum over all 1024 columns. -/
theorem accRe_apply (X : FVec Ideal S1x256x1028 .bf16) (B : FVec Ideal S513x1024 .bf16) (c : Fin 513) (t : Fin 1025) :
    accRe (F := Ideal) X B (ix2 c t) = blockCoeff X B c t := by
  rw [accRe_steps]
  have hn : 0 < 1024 := by norm_num
  let g : Fin 1024 → EReal := fun n => B (ix2 c n) * X (ix3 (0 : Fin 1) (⟨n.val % 256, Nat.mod_lt _ (by norm_num)⟩ : Fin 256)
    (⟨t.val + n.val / 256, by have := t.isLt; have := n.isLt; omega⟩ : Fin 1028))
  have key : ∀ k : Fin 4, groupSum X B c t k = BlockedSum.blockSum hn 256 g k.val := by
    intro k
    unfold groupSum BlockedSum.blockSum
    refine Finset.sum_congr rfl fun q _ => ?_
    have hv : (BlockedSum.blkIdx hn 256 k.val q).val = 256 * k.val + q.val :=
      BlockedSum.blkIdx_val hn (nb := 4) (by norm_num) k.isLt q
    have hq := q.isLt
    have e1 : BlockedSum.blkIdx hn 256 k.val q = col k q := Fin.ext hv
    show _ = B (ix2 c (BlockedSum.blkIdx hn 256 k.val q)) * X (ix3 (0 : Fin 1) ⟨(BlockedSum.blkIdx hn 256 k.val q).val % 256, _⟩
      ⟨t.val + (BlockedSum.blkIdx hn 256 k.val q).val / 256, _⟩)
    rw [e1]
    refine congrArg (B (ix2 c (col k q)) * X ·) ?_
    funext a
    match a with
    | ⟨0, _⟩ => rfl
    | ⟨1, _⟩ => exact Fin.ext (show q.val = (256 * k.val + q.val) % 256 by omega)
    | ⟨2, _⟩ => exact Fin.ext (show t.val + k.val = t.val + (256 * k.val + q.val) / 256 by omega)
  show _ = ∑ n : Fin 1024, g n
  rw [← BlockedSum.partialSum_last hn (nb := 4) (bs := 256) (by norm_num) g (k := 3) rfl,
    BlockedSum.partialSum_succ, BlockedSum.partialSum_succ, BlockedSum.partialSum_succ, BlockedSum.partialSum_zero,
    key 0, key 1, key 2, key 3, zero_add]
  rfl

/-- The imaginary accumulator is the same function of its basis block. -/
theorem accIm_eq (X : FVec Ideal S1x256x1028 .bf16) (B : FVec Ideal S513x1024 .bf16) : accIm (F := Ideal) X B = accRe (F := Ideal) X B := rfl

/-- The output block at `(0, c, t)`: the magnitude of the two accumulators' entries. -/
theorem blockOut_apply (X : FVec Ideal S1x256x1028 .bf16) (Bre Bim : FVec Ideal S513x1024 .bf16) (u : Fin 1) (c : Fin 513) (t : Fin 1025) :
    blockOut (F := Ideal) X Bre Bim (ix3 u c t)
      = Ideal.sqrt (blockCoeff X Bre c t * blockCoeff X Bre c t + blockCoeff X Bim c t * blockCoeff X Bim c t) := by
  unfold blockOut k0_pay3
  refine (shapeCast_ab_1ab_apply _ _ u c t).trans ?_
  show Ideal.sqrt (accRe (F := Ideal) X Bre (ix2 c t) * accRe (F := Ideal) X Bre (ix2 c t) + accIm (F := Ideal) X Bim (ix2 c t) * accIm (F := Ideal) X Bim (ix2 c t)) = _
  rw [accIm_eq, accRe_apply, accRe_apply]

end Cert.KernelIdeal.Stft

end
-- ==== Proof.Spectrum.lean ====
/-
  The mathematics both programs compute, stated once over literal shapes and importing neither program.

  A signal row `x[b, ·]` of length 262144 is reflect-padded by 512 on each side to `xp[b, ·]` of length 263168
  (`reflectPad`: the 512 entries after the first, reversed; the row; the 512 entries before the last, reversed).
  Frame `t` (0 ≤ t < 1025) of a padded row is its 1024 consecutive entries from position `256·t`.
  `coeff xp basis b c t` is the inner product of row `c` of the basis with frame `t` of padded row `b`;
  rows `c < 513` of the basis are the real parts and rows `513 + c` the imaginary parts of the windowed Fourier basis, and
  the result is the magnitude `sqrt (re² + im²)` at `(b, c, t)` (`mag`, `magnitude`).
-/
import Idealize.ShloMosaic.PureOps.Ideal
import Idealize.ShloMosaic.Lib.ValueIdx

noncomputable section

open scoped BigOperators

namespace Cert.Spectrum

open Idealize.ShloMosaic Idealize.ShloMosaic.ValueIdx

/-- The signal `[32, 262144]`. -/
abbrev SIn : Shape := ⟨2, ![32, 262144]⟩
/-- One reflected edge `[32, 512]`. -/
abbrev SEdge : Shape := ⟨2, ![32, 512]⟩
/-- The signal with its left edge in front `[32, 262656]`. -/
abbrev SLeft : Shape := ⟨2, ![32, 262656]⟩
/-- The padded signal `[32, 263168]`. -/
abbrev SPad : Shape := ⟨2, ![32, 263168]⟩
/-- The basis `[1026, 1024]`: 513 real rows above 513 imaginary rows. -/
abbrev SBasis : Shape := ⟨2, ![1026, 1024]⟩
/-- The magnitudes `[32, 513, 1025]`. -/
abbrev SOut : Shape := ⟨3, ![32, 513, 1025]⟩

/-- The signal with its reflected left edge in front: entries 1 … 512 reversed, then the row. -/
def leftPad (x : FVec Ideal SIn .f32) (h1 : SIn.Slices ![0, 1] SEdge) (h2 : Shape.Concatenates [SEdge, SIn] SLeft 1) :
    FVec Ideal SLeft .f32 :=
  concatenate SLeft 1 [⟨SEdge, Host.reverse [1] (extractStridedSlice SEdge ![0, 1] x h1)⟩, ⟨SIn, x⟩] h2

/-- The reflect-padded signal: the left-padded row, then its entries 262143 … 262654 (the 512 before the signal's last)
    reversed. The side conditions of the slices and concatenations are arguments: any proofs give the same array. -/
def reflectPad (x : FVec Ideal SIn .f32) (h1 : SIn.Slices ![0, 1] SEdge) (h2 : Shape.Concatenates [SEdge, SIn] SLeft 1)
    (h3 : SLeft.Slices ![0, 262143] SEdge) (h4 : Shape.Concatenates [SLeft, SEdge] SPad 1) : FVec Ideal SPad .f32 :=
  concatenate SPad 1 [⟨SLeft, leftPad x h1 h2⟩,
    ⟨SEdge, Host.reverse [1] (extractStridedSlice SEdge ![0, 262143] (leftPad x h1 h2) h3)⟩] h4

/-- Position `256·t + n` of a padded row: entry `n` of frame `t`. -/
abbrev framePos (t : Fin 1025) (n : Fin 1024) : Fin 263168 :=
  ⟨256 * t.val + n.val, by have := t.isLt; have := n.isLt; omega⟩

/-- Row `c` of the basis against frame `t` of padded row `b`. -/
def coeff (xp : FVec Ideal SPad .f32) (basis : FVec Ideal SBasis .f32) (b : Fin 32) (c : Fin 1026) (t : Fin 1025) : EReal :=
  ∑ n : Fin 1024, (basis (ix2 c n) * xp (ix2 b (framePos t n)) : EReal)

/-- Real row `c` of the basis, as a row of the whole basis. -/
abbrev reRow (c : Fin 513) : Fin 1026 := ⟨c.val, by have := c.isLt; omega⟩
/-- Imaginary row `c` of the basis, as a row of the whole basis. -/
abbrev imRow (c : Fin 513) : Fin 1026 := ⟨513 + c.val, by have := c.isLt; omega⟩

/-- The magnitude at `(b, c, t)`: `sqrt (re² + im²)` on the extended reals. -/
def mag (xp : FVec Ideal SPad .f32) (basis : FVec Ideal SBasis .f32) (b : Fin 32) (c : Fin 513) (t : Fin 1025) : EReal :=
  Ideal.sqrt (coeff xp basis b (reRow c) t * coeff xp basis b (reRow c) t
    + coeff xp basis b (imRow c) t * coeff xp basis b (imRow c) t)

/-- The whole result array. -/
def magnitude (xp : FVec Ideal SPad .f32) (basis : FVec Ideal SBasis .f32) : FVec Ideal SOut .f32 :=
  fun i => mag xp basis (i 0) (i 1) (i 2)

/-- The result array at an index given by coordinates. -/
theorem magnitude_ix3 (xp : FVec Ideal SPad .f32) (basis : FVec Ideal SBasis .f32) (b : Fin 32) (c : Fin 513) (t : Fin 1025) :
    magnitude xp basis (ix3 b c t) = mag xp basis b c t := rfl

end Cert.Spectrum

end
-- ==== Proof.KBlock.lean ====
/-
  The output block of grid point `b` is block `b` of the magnitude array.

  If the point's signal block holds padded row `b` in chunks — entry `(0, h, j)` is position `256·j + h` of the row —
  and its two basis blocks hold the real and the imaginary rows of the basis, then column `n` of a basis row meets
  position `256·(t + n div 256) + n mod 256 = 256·t + n` of the padded row: entry `n` of frame `t`.  So the block's
  coefficient is the specification's, and the output entry `(0, c, t)` is the magnitude at `(b, c, t)`.
-/
import proofs.«150967_j42271068127681_2_alg».proof.Proof.KEntry
import proofs.«150967_j42271068127681_2_alg».proof.Proof.Spectrum

noncomputable section

open scoped BigOperators

namespace Cert.KernelIdeal.Stft

open Cert.KernelIdeal Cert.KernelIdeal.Gen
open Idealize.ShloMosaic Idealize.ShloMosaic.ValueIdx

/-- A block's coefficient is the specification's coefficient of the row the basis block's row stands for. -/
theorem blockCoeff_eq (xp : FVec Ideal Cert.Spectrum.SPad .f32) (basis : FVec Ideal Cert.Spectrum.SBasis .f32) (b : Fin 32)
    (X : FVec Ideal S1x256x1028 .bf16) (B : FVec Ideal S513x1024 .bf16) (row : Fin 513 → Fin 1026)
    (hX : ∀ (h : Fin 256) (j : Fin 1028), X (ix3 (0 : Fin 1) h j)
      = xp (ix2 b (⟨256 * j.val + h.val, by have := j.isLt; have := h.isLt; omega⟩ : Fin 263168)))
    (hB : ∀ (r : Fin 513) (n : Fin 1024), B (ix2 r n) = basis (ix2 (row r) n))
    (c : Fin 513) (t : Fin 1025) :
    blockCoeff X B c t = Cert.Spectrum.coeff xp basis b (row c) t := by
  unfold blockCoeff Cert.Spectrum.coeff
  refine Finset.sum_congr rfl fun n _ => ?_
  rw [hB, hX]
  refine congrArg (fun k => (basis (ix2 (row c) n) * xp (ix2 b k) : EReal)) (Fin.ext ?_)
  show 256 * (t.val + n.val / 256) + n.val % 256 = 256 * t.val + n.val
  omega

/-- The output block's entry `(u, c, t)` is the magnitude at `(b, c, t)`. -/
theorem blockOut_eq_mag (xp : FVec Ideal Cert.Spectrum.SPad .f32) (basis : FVec Ideal Cert.Spectrum.SBasis .f32) (b : Fin 32)
    (X : FVec Ideal S1x256x1028 .bf16) (Bre Bim : FVec Ideal S513x1024 .bf16)
    (hX : ∀ (h : Fin 256) (j : Fin 1028), X (ix3 (0 : Fin 1) h j)
      = xp (ix2 b (⟨256 * j.val + h.val, by have := j.isLt; have := h.isLt; omega⟩ : Fin 263168)))
    (hre : ∀ (r : Fin 513) (n : Fin 1024), Bre (ix2 r n) = basis (ix2 (Cert.Spectrum.reRow r) n))
    (him : ∀ (r : Fin 513) (n : Fin 1024), Bim (ix2 r n) = basis (ix2 (Cert.Spectrum.imRow r) n))
    (u : Fin 1) (c : Fin 513) (t : Fin 1025) :
    blockOut (F := Ideal) X Bre Bim (ix3 u c t) = Cert.Spectrum.mag xp basis b c t := by
  rw [blockOut_apply, blockCoeff_eq xp basis b X Bre Cert.Spectrum.reRow hX hre c t,
    blockCoeff_eq xp basis b X Bim Cert.Spectrum.imRow hX him c t]
  rfl

end Cert.KernelIdeal.Stft

end
-- ==== Proof.KHost.lean ====
/-
  The three arrays the kernel's windows read, as the region finds them, read at an index.

  Before the region the program pads the signal (the reflect pad of the specification), cuts each padded row of
  263168 entries into 1028 chunks of 256, swaps the chunk axis with the position axis and narrows to bf16 (the
  identity on extended reals): entry `(b, h, j)` of the signal array is position `256·j + h` of padded row `b`.
  The basis is cut into its real rows `0 … 512` and its imaginary rows `513 … 1025`, each narrowed to bf16.
  The host operations come in three stretches (a constant; the pad; the rest), and the contents after all of them
  are read stretch by stretch, so that the pad is met once, as one term.
-/
import proofs.«150967_j42271068127681_2_alg».proof.Proof.Gen.KernelIdeal.Frame
import proofs.«150967_j42271068127681_2_alg».proof.Proof.Spectrum
import Idealize.ShloMosaic.Lib.StableHlo.Run
import Idealize.ShloMosaic.Lib.ValueLayout
import Idealize.ShloMosaic.Lib.Pipeline.Value

set_option maxRecDepth 16384

noncomputable section

namespace Cert.KernelIdeal.Stft

open Cert.KernelIdeal Cert.KernelIdeal.Gen
open Idealize.ShloMosaic Idealize.ShloMosaic.TcCoe Idealize.SL.Sem Idealize.ShloMosaic.StableHlo Idealize.ShloMosaic.ValueIdx

/-- The contents after two stretches of operations are those after the second, from those after the first. -/
theorem after_append {τ : Topo} {sig : RefSig} {Val : EltTy → Type} (l₁ l₂ : List (HloOp τ sig Val)) (W : Valuation τ sig Val) :
    after (l₁ ++ l₂) W = after l₂ (after l₁ W) := by
  induction l₁ generalizing W with
  | nil => rfl
  | cons op l ih => simp only [List.cons_append, after_cons, ih]

/-- The last stretch makes the signal array from the padded signal: chunks, chunk axis last, narrowed. -/
theorem tail_signal (W : Valuation τ sig (Elt Ideal)) :
    (after (hostOps0_2 (F := Ideal)) W (Proc.devRef .tc main_v3) : S32x256x1028.Idx → EReal)
      = truncf (F := Ideal) .bf16 (transpose S32x256x1028 [0, 2, 1]
          (shapeCast S32x1028x256 (W (Proc.devRef .tc main_v0) : S32x263168.Idx → EReal) shapeCasts_S32x263168_S32x1028x256)
          transposes_S32x1028x256_S32x256x1028_0_2_1) bitsLt_bf16_f32 := by
  after_results
  rfl

/-- The last stretch makes the real basis block from the basis. -/
theorem tail_re (W : Valuation τ sig (Elt Ideal)) :
    (after (hostOps0_2 (F := Ideal)) W (Proc.devRef .tc main_v5) : S513x1024.Idx → EReal)
      = truncf (F := Ideal) .bf16 (extractStridedSlice S513x1024 ![0, 0] (W (Proc.devRef .tc main_arg1) : S1026x1024.Idx → EReal)
          slices_S1026x1024_S513x1024_0_0) bitsLt_bf16_f32 := by
  after_results

/-- The last stretch makes the imaginary basis block from the basis. -/
theorem tail_im (W : Valuation τ sig (Elt Ideal)) :
    (after (hostOps0_2 (F := Ideal)) W (Proc.devRef .tc main_v7) : S513x1024.Idx → EReal)
      = truncf (F := Ideal) .bf16 (extractStridedSlice S513x1024 ![513, 0] (W (Proc.devRef .tc main_arg1) : S1026x1024.Idx → EReal)
          slices_S1026x1024_S513x1024_513_0) bitsLt_bf16_f32 := by
  after_results

/-- The middle stretch is the reflect pad of the signal. -/
theorem pad_stretch (W : Valuation τ sig (Elt Ideal)) :
    (after (hostOps0_1 (F := Ideal)) W (Proc.devRef .tc main_v0) : S32x263168.Idx → EReal)
      = Cert.Spectrum.reflectPad (W (Proc.devRef .tc main_arg0) : S32x262144.Idx → EReal) slices_S32x262144_S32x512_0_1
          concatenates_S32x512_S32x262144_S32x262656_d1 slices_S32x262656_S32x512_0_262143
          concatenates_S32x262656_S32x512_S32x263168_d1 := by
  after_results
  unfold Cert.Spectrum.reflectPad Cert.Spectrum.leftPad
  rfl

/-- The pad leaves the basis alone. -/
theorem pad_keeps_basis (W : Valuation τ sig (Elt Ideal)) :
    after (hostOps0_1 (F := Ideal)) W (Proc.devRef .tc main_arg1) = W (Proc.devRef .tc main_arg1) := by
  after_results

/-- The first stretch, a constant, leaves both arguments alone. -/
theorem head_keeps_signal (W : Valuation τ sig (Elt Ideal)) :
    after (hostOps0 (F := Ideal)) W (Proc.devRef .tc main_arg0) = W (Proc.devRef .tc main_arg0) := by
  after_results
theorem head_keeps_basis (W : Valuation τ sig (Elt Ideal)) :
    after (hostOps0 (F := Ideal)) W (Proc.devRef .tc main_arg1) = W (Proc.devRef .tc main_arg1) := by
  after_results

variable (m : (ℓ : Loc nD τ sig) → Buf (Elt Ideal) ℓ)

/-- The padded signal of core `c`: the reflect pad of its first argument. -/
def padded (c : Dev nD) : FVec Ideal Cert.Spectrum.SPad .f32 :=
  Cert.Spectrum.reflectPad (m ((c : Thread nD τ).loc main_arg0)) slices_S32x262144_S32x512_0_1
    concatenates_S32x512_S32x262144_S32x262656_d1 slices_S32x262656_S32x512_0_262143
    concatenates_S32x262656_S32x512_S32x263168_d1

/-- The signal array the first window reads: the padded signal in chunks, chunk axis last, narrowed. -/
theorem signal_eq (c : Dev nD) :
    (V m c main_v3 : S32x256x1028.Idx → EReal)
      = truncf (F := Ideal) .bf16 (transpose S32x256x1028 [0, 2, 1] (shapeCast S32x1028x256 (padded m c) shapeCasts_S32x263168_S32x1028x256)
          transposes_S32x1028x256_S32x256x1028_0_2_1) bitsLt_bf16_f32 := by
  dsimp only [Gen.V]
  simp only [List.flatten_cons, List.flatten_nil, List.append_nil, after_append]
  rw [tail_signal, pad_stretch, head_keeps_signal]
  rfl

/-- The real rows of the basis, as the second window finds them. -/
theorem reBasis_eq (c : Dev nD) :
    (V m c main_v5 : S513x1024.Idx → EReal)
      = truncf (F := Ideal) .bf16 (extractStridedSlice S513x1024 ![0, 0] (m ((c : Thread nD τ).loc main_arg1) : S1026x1024.Idx → EReal)
          slices_S1026x1024_S513x1024_0_0) bitsLt_bf16_f32 := by
  dsimp only [Gen.V]
  simp only [List.flatten_cons, List.flatten_nil, List.append_nil, after_append]
  rw [tail_re, pad_keeps_basis, head_keeps_basis]

/-- The imaginary rows of the basis, as the third window finds them. -/
theorem imBasis_eq (c : Dev nD) :
    (V m c main_v7 : S513x1024.Idx → EReal)
      = truncf (F := Ideal) .bf16 (extractStridedSlice S513x1024 ![513, 0] (m ((c : Thread nD τ).loc main_arg1) : S1026x1024.Idx → EReal)
          slices_S1026x1024_S513x1024_513_0) bitsLt_bf16_f32 := by
  dsimp only [Gen.V]
  simp only [List.flatten_cons, List.flatten_nil, List.append_nil, after_append]
  rw [tail_im, pad_keeps_basis, head_keeps_basis]

/-- Entry `(b, h, j)` of the signal array is position `256·j + h` of padded row `b`. -/
theorem signal_apply (c : Dev nD) (b : Fin 32) (h : Fin 256) (j : Fin 1028) :
    (V m c main_v3 : S32x256x1028.Idx → EReal) (ix3 b h j)
      = padded m c (ix2 b (⟨256 * j.val + h.val, by have := j.isLt; have := h.isLt; omega⟩ : Fin 263168)) := by
  rw [signal_eq]
  show transpose S32x256x1028 [0, 2, 1] (shapeCast S32x1028x256 (padded m c) shapeCasts_S32x263168_S32x1028x256)
    transposes_S32x1028x256_S32x256x1028_0_2_1 (ix3 b h j) = _
  refine (transpose_apply [0, 2, 1] _ _ (ix3 b h j) (ix3 b j h) (fun a => ?_)).trans ?_
  · match a with
    | ⟨0, _⟩ => rfl
    | ⟨1, _⟩ => rfl
    | ⟨2, _⟩ => rfl
  · refine shapeCast_apply _ _ (ix3 b j h) _ ?_
    rw [Shape.rowMajor_val_two, Shape.rowMajor_val_three]
    show b.val * 263168 + (256 * j.val + h.val) = (b.val * 1028 + j.val) * 256 + h.val
    omega

/-- Row `r` of the real block is row `r` of the basis. -/
theorem reBasis_apply (c : Dev nD) (r : Fin 513) (n : Fin 1024) :
    (V m c main_v5 : S513x1024.Idx → EReal) (ix2 r n)
      = (m ((c : Thread nD τ).loc main_arg1) : S1026x1024.Idx → EReal) (ix2 (Cert.Spectrum.reRow r) n) := by
  rw [reBasis_eq]
  exact slice2_axis0_apply 0 (m ((c : Thread nD τ).loc main_arg1) : S1026x1024.Idx → EReal) slices_S1026x1024_S513x1024_0_0 r n
    (Cert.Spectrum.reRow r) (Nat.zero_add _).symm

/-- Row `r` of the imaginary block is row `513 + r` of the basis. -/
theorem imBasis_apply (c : Dev nD) (r : Fin 513) (n : Fin 1024) :
    (V m c main_v7 : S513x1024.Idx → EReal) (ix2 r n)
      = (m ((c : Thread nD τ).loc main_arg1) : S1026x1024.Idx → EReal) (ix2 (Cert.Spectrum.imRow r) n) := by
  rw [imBasis_eq]
  exact slice2_axis0_apply 513 (m ((c : Thread nD τ).loc main_arg1) : S1026x1024.Idx → EReal) slices_S1026x1024_S513x1024_513_0 r n
    (Cert.Spectrum.imRow r) rfl

end Cert.KernelIdeal.Stft

end
-- ==== Proof.KFinal.lean ====
/-
  From the blocks to the whole array, and the kernel's run.

  The grid has 32 points; point `t` reads block `(t, 0, 0)` of the signal array (all of row `t`: 256 positions by
  1028 chunks), the whole real and imaginary basis blocks, and writes block `(t, 0, 0)` of the result (all of
  `[t, ·, ·]`).  What it writes back is block `t` of the magnitude array of the padded signal and the basis, and the
  32 blocks cover the result array: index `(b, c, t')` lies in the block of point `b`.  So after the run the result
  array is the magnitude array.
-/
import proofs.«150967_j42271068127681_2_alg».proof.Proof.Gen.KernelIdeal.Value
import proofs.«150967_j42271068127681_2_alg».proof.Proof.KBody
import proofs.«150967_j42271068127681_2_alg».proof.Proof.KBlock
import proofs.«150967_j42271068127681_2_alg».proof.Proof.KHost

set_option maxRecDepth 16384

noncomputable section

namespace Cert.KernelIdeal.Stft

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The index maps over the grid: the signal and the result move along their leading axis with the point; the basis
    blocks stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A point of the grid as a row of the signal. -/
abbrev rowOf (t : Fin cfg0.N) : Fin 32 := ⟨t.val, lt_of_lt_of_eq t.isLt (show cfg0.N = 32 from N_0)⟩

/-- The signal block of point `t` holds padded row `t` in chunks. -/
theorem signal_block (c : Dev nD) (t : Fin cfg0.N) (h : Fin 256) (j : Fin 1028) :
    iblk m c 0 t (ix3 (0 : Fin 1) h j)
      = padded m c (ix2 (rowOf t) (⟨256 * j.val + h.val, by have := j.isLt; have := h.isLt; omega⟩ : Fin 263168)) := by
  obtain ⟨e0, e1, e2, -⟩ := idx_facts t
  show (V m c main_v3 : S32x256x1028.Idx → EReal) (((cfg0.win 0).blk t).view.emb (ix3 (0 : Fin 1) h j)) = _
  have he : ((cfg0.win 0).blk t).view.emb (ix3 (0 : Fin 1) h j) = ix3 (rowOf t) h j := by
    funext a; apply Fin.ext
    match a with
    | ⟨0, _⟩ => show win0_0.index t (0 : Fin 3) * 1 + 1 * 0 = t.val; omega
    | ⟨1, _⟩ => show win0_0.index t (1 : Fin 3) * 256 + 1 * h.val = h.val; omega
    | ⟨2, _⟩ => show win0_0.index t (2 : Fin 3) * 1028 + 1 * j.val = j.val; omega
  rw [he]
  exact signal_apply m c (rowOf t) h j

/-- The real basis block of every point is the real rows of the basis. -/
theorem reBasis_block (c : Dev nD) (t : Fin cfg0.N) (r : Fin 513) (n : Fin 1024) :
    iblk m c 1 t (ix2 r n) = (m ((c : Thread nD τ).loc main_arg1) : S1026x1024.Idx → EReal) (ix2 (Cert.Spectrum.reRow r) n) := by
  obtain ⟨-, -, -, e0, e1, -⟩ := idx_facts t
  show (V m c main_v5 : S513x1024.Idx → EReal) (((cfg0.win 1).blk t).view.emb (ix2 r n)) = _
  have he : ((cfg0.win 1).blk t).view.emb (ix2 r n) = ix2 r n := by
    funext a; apply Fin.ext
    match a with
    | ⟨0, _⟩ => show win0_1.index t (0 : Fin 2) * 513 + 1 * r.val = r.val; omega
    | ⟨1, _⟩ => show win0_1.index t (1 : Fin 2) * 1024 + 1 * n.val = n.val; omega
  rw [he]
  exact reBasis_apply m c r n

/-- The imaginary basis block of every point is the imaginary rows of the basis. -/
theorem imBasis_block (c : Dev nD) (t : Fin cfg0.N) (r : Fin 513) (n : Fin 1024) :
    iblk m c 2 t (ix2 r n) = (m ((c : Thread nD τ).loc main_arg1) : S1026x1024.Idx → EReal) (ix2 (Cert.Spectrum.imRow r) n) := by
  obtain ⟨-, -, -, -, -, e0, e1, -⟩ := idx_facts t
  show (V m c main_v7 : S513x1024.Idx → EReal) (((cfg0.win 2).blk t).view.emb (ix2 r n)) = _
  have he : ((cfg0.win 2).blk t).view.emb (ix2 r n) = ix2 r n := by
    funext a; apply Fin.ext
    match a with
    | ⟨0, _⟩ => show win0_2.index t (0 : Fin 2) * 513 + 1 * r.val = r.val; omega
    | ⟨1, _⟩ => show win0_2.index t (1 : Fin 2) * 1024 + 1 * n.val = n.val; omega
  rw [he]
  exact imBasis_apply m c r n

/-- The result array of core `c`: the magnitudes of its padded signal against its basis. -/
def result (c : Dev nD) : FVec Ideal Cert.Spectrum.SOut .f32 :=
  Cert.Spectrum.magnitude (padded m c) (m ((c : Thread nD τ).loc main_arg1))

/-- What point `t` writes back is block `t` of the result array. -/
theorem flushed_eq (c : Dev nD) (t : Fin cfg0.N) :
    (dats m 0 c).flushed 3 t = ((cfg0.win 3).blk t).view.read (Elt Ideal) (result m c) := by
  rw [Cert.KernelIdeal.Value.flushed3_A, out_eq]
  obtain ⟨-, -, -, -, -, -, -, e0, e1, e2⟩ := idx_facts t
  funext y
  obtain ⟨u, cc, tt, rfl⟩ : ∃ (u : Fin 1) (cc : Fin 513) (tt : Fin 1025), y = ix3 u cc tt := ⟨y 0, y 1, y 2, eq_ix3 y⟩
  show blockOut (F := Ideal) (iblk m c 0 t) (iblk m c 1 t) (iblk m c 2 t) (ix3 u cc tt)
    = result m c (((cfg0.win 3).blk t).view.emb (ix3 u cc tt))
  have he : ((cfg0.win 3).blk t).view.emb (ix3 u cc tt) = ix3 (rowOf t) cc tt := by
    funext a; apply Fin.ext
    match a with
    | ⟨0, _⟩ => show win0_3.index t (0 : Fin 3) * 1 + 1 * u.val = t.val; have := u.isLt; omega
    | ⟨1, _⟩ => show win0_3.index t (1 : Fin 3) * 513 + 1 * cc.val = cc.val; omega
    | ⟨2, _⟩ => show win0_3.index t (2 : Fin 3) * 1025 + 1 * tt.val = tt.val; omega
  rw [he]
  exact blockOut_eq_mag (padded m c) (m ((c : Thread nD τ).loc main_arg1)) (rowOf t) (iblk m c 0 t) (iblk m c 1 t) (iblk m c 2 t)
    (signal_block m c t) (reBasis_block m c t) (imBasis_block m c t) u cc tt

/-- The 32 blocks cover the result array, so after the run it is the magnitude array. -/
theorem final (c : Dev nD) : (dats m 0 c).arrAt 3 cfg0.N = result m c :=
  (dats m 0 c).arrAt_eq_of_cover 3 (result m c) (fun t _ => flushed_eq m c t) fun i => by
    have h0 : (i 0 : Nat) < 32 := (i 0).isLt
    have h1 : (i 1 : Nat) < 513 := (i 1).isLt
    have h2 : (i 2 : Nat) < 1025 := (i 2).isLt
    let t : Fin cfg0.N := ⟨(i 0 : Nat), lt_of_lt_of_eq h0 (show cfg0.N = 32 from N_0).symm⟩
    have ht : t.val = (i 0 : Nat) := rfl
    obtain ⟨-, -, -, -, -, -, -, e0, e1, e2⟩ := idx_facts t
    refine ⟨t, flush0_3 t, ?_⟩
    show i ∈ ((View.whole main_v8).slice (win0_3.rect t)).set
    rw [View.set_slice_whole, Rect.mem_set_unit]
    intro a
    match a with
    | ⟨0, _⟩ => show win0_3.index t (0 : Fin 3) * 1 ≤ (i 0 : Nat) ∧ (i 0 : Nat) < win0_3.index t (0 : Fin 3) * 1 + 1; omega
    | ⟨1, _⟩ => show win0_3.index t (1 : Fin 3) * 513 ≤ (i 1 : Nat) ∧ (i 1 : Nat) < win0_3.index t (1 : Fin 3) * 513 + 513; omega
    | ⟨2, _⟩ => show win0_3.index t (2 : Fin 3) * 1025 ≤ (i 2 : Nat) ∧ (i 2 : Nat) < win0_3.index t (2 : Fin 3) * 1025 + 1025; omega

/-- The kernel's run: the result array ends at the magnitude array, the arguments unchanged. -/
theorem run : θ_run (defs (F := Ideal)) (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Stft

end
-- ==== Proof.RefTerm.lean ====
/-
  The reference's result as ONE pure term of its two arguments, named piece by piece: the reflect-padded signal
  (refPad), the integer table of frame positions (refIdx), the frames gathered through it (refFrames), the basis
  contracted against the frames and transposed (refSpec), and the magnitude of its two halves (refOut).
-/
import proofs.«150967_j42271068127681_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The signal with its reflected left edge in front. -/
def refLeft (x : FVec F S32x262144 .f32) : FVec F S32x262656 .f32 :=
  concatenate S32x262656 1
    [⟨S32x512, Host.reverse [1] (extractStridedSlice S32x512 ![0, 1] x slices_S32x262144_S32x512_0_1)⟩, ⟨S32x262144, x⟩]
    concatenates_S32x512_S32x262144_S32x262656_d1

/-- The reflect-padded signal. -/
def refPad (x : FVec F S32x262144 .f32) : FVec F S32x263168 .f32 :=
  concatenate S32x263168 1
    [⟨S32x262656, refLeft x⟩,
      ⟨S32x512, Host.reverse [1] (extractStridedSlice S32x512 ![0, 262143] (refLeft x) slices_S32x262656_S32x512_0_262143)⟩]
    concatenates_S32x262656_S32x512_S32x263168_d1

/-- The table 256 t + n in 32-bit integers: the column of frame starts times 256, plus the row of offsets. -/
def refBase : IVec S1025x1024 32 :=
  addi
    (broadcastInDim S1025x1024 ![0, 1] bcast_S1025x1_S1025x1024_0_1
      (muli (broadcastInDim S1025x1 ![0] bcast_S1025_S1025x1_0 (iotaInDim S1025 32 0))
        (broadcastInDim S1025x1 ![] bcast_S_S1025x1 (constantI S_ 32 256#32))))
    (broadcastInDim S1025x1024 ![0, 1] bcast_S1x1024_S1025x1024_0_1
      (broadcastInDim S1x1024 ![1] bcast_S1024_S1x1024_1 (iotaInDim S1024 32 0)))

/-- The table after "add the padded length where negative", with the unit axis the gather reads its index along. -/
def refIdx : IVec S1025x1024x1 32 :=
  broadcastInDim S1025x1024x1 ![0, 1] bcast_S1025x1024_S1025x1024x1_0_1
    (select (cmpi .slt refBase (broadcastInDim S1025x1024 ![] bcast_S_S1025x1024 (constantI S_ 32 0#32)))
      (addi refBase (broadcastInDim S1025x1024 ![] bcast_S_S1025x1024 (constantI S_ 32 263168#32)))
      refBase)

/-- The frames: the padded signal gathered through the table. -/
def refFrames (xp : FVec F S32x263168 .f32) : FVec F S32x1025x1024 .f32 :=
  Host.gather gather_S32x263168_S1025x1024x1_S32x1025x1024_0_1_n_n_1_2_321 xp refIdx

/-- The basis contracted against every frame, batch axis first. -/
def refSpec (xp : FVec F S32x263168 .f32) (basis : FVec F S1026x1024 .f32) : FVec F S32x1026x1025 .f32 :=
  transpose S32x1026x1025 [1, 0, 2]
    (Host.dotGeneral dot_S1026x1024_S32x1025x1024_S1026x32x1025_1_2_0_01_n_n none basis (refFrames xp))
    transposes_S1026x32x1025_S32x1026x1025_1_0_2

/-- The magnitude: the square root of the sum of the squares of the two halves of the rows. -/
def refOut (xp : FVec F S32x263168 .f32) (basis : FVec F S1026x1024 .f32) : FVec F S32x513x1025 .f32 :=
  Host.sqrt
    (addf
      (mulf (extractStridedSlice S32x513x1025 ![0, 0, 0] (refSpec xp basis) slices_S32x1026x1025_S32x513x1025_0_0_0)
        (extractStridedSlice S32x513x1025 ![0, 0, 0] (refSpec xp basis) slices_S32x1026x1025_S32x513x1025_0_0_0))
      (mulf (extractStridedSlice S32x513x1025 ![0, 513, 0] (refSpec xp basis) slices_S32x1026x1025_S32x513x1025_0_513_0)
        (extractStridedSlice S32x513x1025 ![0, 513, 0] (refSpec xp basis) slices_S32x1026x1025_S32x513x1025_0_513_0)))

end Cert.ReferenceIdeal.RefValue

end
-- ==== Proof.RefRun.lean ====
/-
  The reference program's @main as ONE list of its 38 host operations (the nested padding function's eight
  operations listed inline at its call site, over the call's own buffers), and its run read back: every weakly
  fair execution terminates with each buffer at the operations' fold over the launch contents, and the result
  buffer's fold is the reference's term (the module RefTerm) of the two arguments' contents.
-/
import proofs.«150967_j42271068127681_2_alg».proof.Proof.Gen.ReferenceIdeal
import proofs.«150967_j42271068127681_2_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 38 operations in order, the call of the padding function unfolded: the scalar zero it is passed (and
    never reads); its eight operations (two slices, the first edge reversed, the left concatenation, two slices, the
    second edge reversed, the right concatenation; the reversals are the flip function's single operation, run into
    the buffers of the two nested calls); then the index table, the gather, the contraction and the magnitude. -/
abbrev ops : List (HloOp τ sig (Elt F)) :=
  [ nullary main_c (constantI S_ 32 0#32),
    unary main_arg0 main_call0_v0 ((extractStridedSlice S32x1 ![0, 0] · slices_S32x262144_S32x1_0_0) : (⟨S32x262144, .f32⟩ : BufTy).Contents (Elt F) → (⟨S32x1, .f32⟩ : BufTy).Contents (Elt F)),
    unary main_arg0 main_call0_v1 ((extractStridedSlice S32x512 ![0, 1] · slices_S32x262144_S32x512_0_1) : (⟨S32x262144, .f32⟩ : BufTy).Contents (Elt F) → (⟨S32x512, .f32⟩ : BufTy).Contents (Elt F)),
    unary main_call0_v1 main_call0_v2 (Host.reverse [1] : (⟨S32x512, .f32⟩ : BufTy).Contents (Elt F) → (⟨S32x512, .f32⟩ : BufTy).Contents (Elt F)),
    binary main_call0_v2 main_arg0 main_call0_v3 ((fun a b => concatenate S32x262656 1 [⟨S32x512, a⟩, ⟨S32x262144, b⟩] concatenates_S32x512_S32x262144_S32x262656_d1) : (⟨S32x512, .f32⟩ : BufTy).Contents (Elt F) → (⟨S32x262144, .f32⟩ : BufTy).Contents (Elt F) → (⟨S32x262656, .f32⟩ : BufTy).Contents (Elt F)),
    unary main_call0_v3 main_call0_v4 ((extractStridedSlice S32x1 ![0, 262655] · slices_S32x262656_S32x1_0_262655) : (⟨S32x262656, .f32⟩ : BufTy).Contents (Elt F) → (⟨S32x1, .f32⟩ : BufTy).Contents (Elt F)),
    unary main_call0_v3 main_call0_v5 ((extractStridedSlice S32x512 ![0, 262143] · slices_S32x262656_S32x512_0_262143) : (⟨S32x262656, .f32⟩ : BufTy).Contents (Elt F) → (⟨S32x512, .f32⟩ : BufTy).Contents (Elt F)),
    unary main_call0_v5 main_call0_v6 (Host.reverse [1] : (⟨S32x512, .f32⟩ : BufTy).Contents (Elt F) → (⟨S32x512, .f32⟩ : BufTy).Contents (Elt F)),
    binary main_call0_v3 main_call0_v6 main_v0 ((fun a b => concatenate S32x263168 1 [⟨S32x262656, a⟩, ⟨S32x512, b⟩] concatenates_S32x262656_S32x512_S32x263168_d1) : (⟨S32x262656, .f32⟩ : BufTy).Contents (Elt F) → (⟨S32x512, .f32⟩ : BufTy).Contents (Elt F) → (⟨S32x263168, .f32⟩ : BufTy).Contents (Elt F)),
    nullary main_v1 (iotaInDim S1025 32 0),
    unary main_v1 main_v2 (broadcastInDim S1025x1 ![0] bcast_S1025_S1025x1_0 : (⟨S1025, .i32⟩ : BufTy).Contents (Elt F) → (⟨S1025x1, .i32⟩ : BufTy).Contents (Elt F)),
    nullary main_c_0 (constantI S_ 32 256#32),
    unary main_c_0 main_v3 (broadcastInDim S1025x1 ![] bcast_S_S1025x1 : (⟨S_, .i32⟩ : BufTy).Contents (Elt F) → (⟨S1025x1, .i32⟩ : BufTy).Contents (Elt F)),
    binary main_v2 main_v3 main_v4 (muli : (⟨S1025x1, .i32⟩ : BufTy).Contents (Elt F) → (⟨S1025x1, .i32⟩ : BufTy).Contents (Elt F) → (⟨S1025x1, .i32⟩ : BufTy).Contents (Elt F)),
    nullary main_v5 (iotaInDim S1024 32 0),
    unary main_v5 main_v6 (broadcastInDim S1x1024 ![1] bcast_S1024_S1x1024_1 : (⟨S1024, .i32⟩ : BufTy).Contents (Elt F) → (⟨S1x1024, .i32⟩ : BufTy).Contents (Elt F)),
    unary main_v4 main_v7 (broadcastInDim S1025x1024 ![0, 1] bcast_S1025x1_S1025x1024_0_1 : (⟨S1025x1, .i32⟩ : BufTy).Contents (Elt F) → (⟨S1025x1024, .i32⟩ : BufTy).Contents (Elt F)),
    unary main_v6 main_v8 (broadcastInDim S1025x1024 ![0, 1] bcast_S1x1024_S1025x1024_0_1 : (⟨S1x1024, .i32⟩ : BufTy).Contents (Elt F) → (⟨S1025x1024, .i32⟩ : BufTy).Contents (Elt F)),
    binary main_v7 main_v8 main_v9 (addi : (⟨S1025x1024, .i32⟩ : BufTy).Contents (Elt F) → (⟨S1025x1024, .i32⟩ : BufTy).Contents (Elt F) → (⟨S1025x1024, .i32⟩ : BufTy).Contents (Elt F)),
    nullary main_c_1 (constantI S_ 32 0#32),
    unary main_c_1 main_v10 (broadcastInDim S1025x1024 ![] bcast_S_S1025x1024 : (⟨S_, .i32⟩ : BufTy).Contents (Elt F) → (⟨S1025x1024, .i32⟩ : BufTy).Contents (Elt F)),
    binary main_v9 main_v10 main_v11 (cmpi .slt : (⟨S1025x1024, .i32⟩ : BufTy).Contents (Elt F) → (⟨S1025x1024, .i32⟩ : BufTy).Contents (Elt F) → (⟨S1025x1024, .i1⟩ : BufTy).Contents (Elt F)),
    nullary main_c_2 (constantI S_ 32 263168#32),
    unary main_c_2 main_v12 (broadcastInDim S1025x1024 ![] bcast_S_S1025x1024 : (⟨S_, .i32⟩ : BufTy).Contents (Elt F) → (⟨S1025x1024, .i32⟩ : BufTy).Contents (Elt F)),
    binary main_v9 main_v12 main_v13 (addi : (⟨S1025x1024, .i32⟩ : BufTy).Contents (Elt F) → (⟨S1025x1024, .i32⟩ : BufTy).Contents (Elt F) → (⟨S1025x1024, .i32⟩ : BufTy).Contents (Elt F)),
    ternary main_v11 main_v13 main_v9 main_v14 (select : (⟨S1025x1024, .i1⟩ : BufTy).Contents (Elt F) → (⟨S1025x1024, .i32⟩ : BufTy).Contents (Elt F) → (⟨S1025x1024, .i32⟩ : BufTy).Contents (Elt F) → (⟨S1025x1024, .i32⟩ : BufTy).Contents (Elt F)),
    unary main_v14 main_v15 (broadcastInDim S1025x1024x1 ![0, 1] bcast_S1025x1024_S1025x1024x1_0_1 : (⟨S1025x1024, .i32⟩ : BufTy).Contents (Elt F) → (⟨S1025x1024x1, .i32⟩ : BufTy).Contents (Elt F)),
    binary main_v0 main_v15 main_v16 ((fun x i => Host.gather gather_S32x263168_S1025x1024x1_S32x1025x1024_0_1_n_n_1_2_321 x i) : (⟨S32x263168, .f32⟩ : BufTy).Contents (Elt F) → (⟨S1025x1024x1, .i32⟩ : BufTy).Contents (Elt F) → (⟨S32x1025x1024, .f32⟩ : BufTy).Contents (Elt F)),
    binary main_arg1 main_v16 main_v17 ((fun l r => Host.dotGeneral dot_S1026x1024_S32x1025x1024_S1026x32x1025_1_2_0_01_n_n none l r) : (⟨S1026x1024, .f32⟩ : BufTy).Contents (Elt F) → (⟨S32x1025x1024, .f32⟩ : BufTy).Contents (Elt F) → (⟨S1026x32x1025, .f32⟩ : BufTy).Contents (Elt F)),
    unary main_v17 main_v18 ((transpose S32x1026x1025 [1, 0, 2] · transposes_S1026x32x1025_S32x1026x1025_1_0_2) : (⟨S1026x32x1025, .f32⟩ : BufTy).Contents (Elt F) → (⟨S32x1026x1025, .f32⟩ : BufTy).Contents (Elt F)),
    unary main_v18 main_v19 ((extractStridedSlice S32x513x1025 ![0, 0, 0] · slices_S32x1026x1025_S32x513x1025_0_0_0) : (⟨S32x1026x1025, .f32⟩ : BufTy).Contents (Elt F) → (⟨S32x513x1025, .f32⟩ : BufTy).Contents (Elt F)),
    unary main_v18 main_v20 ((extractStridedSlice S32x513x1025 ![0, 513, 0] · slices_S32x1026x1025_S32x513x1025_0_513_0) : (⟨S32x1026x1025, .f32⟩ : BufTy).Contents (Elt F) → (⟨S32x513x1025, .f32⟩ : BufTy).Contents (Elt F)),
    binary main_v19 main_v19 main_v21 (mulf : (⟨S32x513x1025, .f32⟩ : BufTy).Contents (Elt F) → (⟨S32x513x1025, .f32⟩ : BufTy).Contents (Elt F) → (⟨S32x513x1025, .f32⟩ : BufTy).Contents (Elt F)),
    binary main_v20 main_v20 main_v22 (mulf : (⟨S32x513x1025, .f32⟩ : BufTy).Contents (Elt F) → (⟨S32x513x1025, .f32⟩ : BufTy).Contents (Elt F) → (⟨S32x513x1025, .f32⟩ : BufTy).Contents (Elt F)),
    binary main_v21 main_v22 main_v23 (addf : (⟨S32x513x1025, .f32⟩ : BufTy).Contents (Elt F) → (⟨S32x513x1025, .f32⟩ : BufTy).Contents (Elt F) → (⟨S32x513x1025, .f32⟩ : BufTy).Contents (Elt F)),
    unary main_v23 main_v24 (Host.sqrt : (⟨S32x513x1025, .f32⟩ : BufTy).Contents (Elt F) → (⟨S32x513x1025, .f32⟩ : BufTy).Contents (Elt F)) ]

-- thirty-eight binds re-associated: the rewrite under the chain recurses once per statement
set_option maxRecDepth 2048 in
/-- @main is that straight line: the two functions' definitions unfolded at their calls and the records at their
    fields, both sides are one chain of host steps once sequencing is reassociated. -/
theorem main_eq (c : Dev nD) : main (F := F) c = seq ops := by
  simp only [main, fn_pad.body, fn_flip.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., unary_bufs_sub .., binary_bufs_sub .., unary_bufs_sub ..,
    unary_bufs_sub .., unary_bufs_sub .., binary_bufs_sub ..,
    nullary_bufs_sub .., unary_bufs_sub .., nullary_bufs_sub .., unary_bufs_sub .., binary_bufs_sub .., nullary_bufs_sub ..,
    unary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., unary_bufs_sub .., unary_bufs_sub .., binary_bufs_sub ..,
    binary_bufs_sub .., binary_bufs_sub .., unary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather in
set_option maxRecDepth 8192 in
/-- The fold of the 38 operations at the result buffer is the reference's term of the two arguments' contents. -/
theorem out_eq (V : Valuation τ sig (Elt F)) :
    after ops V (main_v24 : DevRef τ sig)
      = refOut (refPad (V (main_arg0 : DevRef τ sig))) (V (main_arg1 : DevRef τ sig)) := by
  after_results_simp
  rfl

/-- No operation writes the first argument's buffer ... -/
theorem arg0_eq (V : Valuation τ sig (Elt F)) :
    after ops V (main_arg0 : DevRef τ sig) = V (main_arg0 : DevRef τ sig) := by
  after_results_simp

/-- ... nor the second's. -/
theorem arg1_eq (V : Valuation τ sig (Elt F)) :
    after ops V (main_arg1 : DevRef τ sig) = V (main_arg1 : DevRef τ sig) := by
  after_results_simp

/-- On every device, for any float values, from any memory with zero counters: every weakly fair execution of @main
    terminates with the result at the reference's term of the arguments, and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24)
          = refOut (refPad (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v24).trans (out_eq _), (h c main_arg0).trans (arg0_eq _),
      (h c main_arg1).trans (arg1_eq _)⟩)
    (run_main m ρ)

end Cert.ReferenceIdeal.RefValue

end
-- ==== Proof.RefDot.lean ====
/-
  The reference's contraction read at an index: entry (c, b, t) of the product of the basis [1026, 1024] with the
  frames [32, 1025, 1024] over their last axes is the sum over n of basis (c, n) times frames (b, t, n).
-/
import proofs.«150967_j42271068127681_2_alg».proof.Proof.Gen.ReferenceIdeal
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The contraction's dimension numbers, under a short name. -/
abbrev DD : DotDims S1026x1024 S32x1025x1024 S1026x32x1025 :=
  dot_S1026x1024_S32x1025x1024_S1026x32x1025_1_2_0_01_n_n

/-- The basis index at result index i and contraction position q: row i 0 ... -/
theorem lhs_0 (i : S1026x32x1025.Idx) (q : DD.contr.Idx) : (DD.lhsIdx i q 0).val = (i 0).val := by
  unfold DotDims.lhsIdx
  rw [dif_neg (show ¬(0 : Fin S1026x1024.rank) ∈ DD.lhsBatch by decide),
    dif_pos (show (0 : Fin S1026x1024.rank) ∈ DD.lhsNonContracting by decide)]
  rfl
/-- ... and column q. -/
theorem lhs_1 (i : S1026x32x1025.Idx) (q : DD.contr.Idx) : (DD.lhsIdx i q 1).val = (q ⟨0, by decide⟩).val :=
  DD.lhsIdx_val_of_single rfl i q
/-- The frames index at result index i and contraction position q: batch row i 1 ... -/
theorem rhs_0 (i : S1026x32x1025.Idx) (q : DD.contr.Idx) : (DD.rhsIdx i q 0).val = (i 1).val := by
  unfold DotDims.rhsIdx
  rw [dif_neg (show ¬(0 : Fin S32x1025x1024.rank) ∈ DD.rhsBatch by decide),
    dif_pos (show (0 : Fin S32x1025x1024.rank) ∈ DD.rhsNonContracting by decide)]
  rfl
/-- ... frame i 2 ... -/
theorem rhs_1 (i : S1026x32x1025.Idx) (q : DD.contr.Idx) : (DD.rhsIdx i q 1).val = (i 2).val := by
  unfold DotDims.rhsIdx
  rw [dif_neg (show ¬(1 : Fin S32x1025x1024.rank) ∈ DD.rhsBatch by decide),
    dif_pos (show (1 : Fin S32x1025x1024.rank) ∈ DD.rhsNonContracting by decide)]
  rfl
/-- ... and entry q of the frame. -/
theorem rhs_2 (i : S1026x32x1025.Idx) (q : DD.contr.Idx) : (DD.rhsIdx i q 2).val = (q ⟨0, by decide⟩).val :=
  DD.rhsIdx_val_of_single rfl i q

/-- The contraction at (c, b, t), on the extended reals: the sum over the 1024 entries of a frame. -/
theorem dot_apply (l : FVec Ideal S1026x1024 .f32) (r : FVec Ideal S32x1025x1024 .f32)
    (c : Fin 1026) (b : Fin 32) (t : Fin 1025) :
    Host.dotGeneral DD none l r (ix3 c b t) = ∑ k : Fin 1024, l (ix2 c k) * r (ix3 b t k) := by
  simp only [Host.dotGeneral]
  rw [Ideal.dotGeneral_apply, ← Equiv.sum_comp (contrEquiv1 DD 1024 rfl rfl).symm]
  refine Finset.sum_congr rfl fun k _ => ?_
  have hk := contrEquiv1_symm_val DD 1024 rfl rfl k
  have el : DD.lhsIdx (ix3 c b t) ((contrEquiv1 DD 1024 rfl rfl).symm k) = ix2 c k := funext fun a => Fin.ext (by
    match a with
    | ⟨0, _⟩ => exact lhs_0 _ _
    | ⟨1, _⟩ => exact (lhs_1 _ _).trans hk)
  have er : DD.rhsIdx (ix3 c b t) ((contrEquiv1 DD 1024 rfl rfl).symm k) = ix3 b t k := funext fun a => Fin.ext (by
    match a with
    | ⟨0, _⟩ => exact rhs_0 _ _
    | ⟨1, _⟩ => exact rhs_1 _ _
    | ⟨2, _⟩ => exact (rhs_2 _ _).trans hk)
  rw [el, er]

end Cert.ReferenceIdeal.RefValue

end
-- ==== Proof.LibRowGather.lean ====
/-
  A gather of whole rows' entries: the operand is a matrix [B, N], the start indices a table [R, C, 1] of column
  positions, and result element (b, t, n) is the operand's row b at the column the table holds at (t, n), read as a
  signed integer and clamped into [0, N - 1].
-/
import Idealize.ShloMosaic.Lib.ValueIdx

noncomputable section

namespace Cert.RefGather

open Idealize.ShloMosaic Idealize.ShloMosaic.ValueIdx

variable {α : Type}

/-- The dimension numbers: the result's first axis is the offset axis and runs over the operand's rows (slice size B
    on axis 0), the operand's column axis is collapsed (slice size 1) and is the one the start index names. -/
abbrev rowDims (B N R C : Nat)
    (wf : GatherDims.WF ⟨2, ![B, N]⟩ ⟨3, ![R, C, 1]⟩ ⟨3, ![B, R, C]⟩ [0] [1] [] [1] [] 2 ![B, 1]) :
    GatherDims ⟨2, ![B, N]⟩ ⟨3, ![R, C, 1]⟩ ⟨3, ![B, R, C]⟩ where
  offsetDims := [0]
  collapsedSliceDims := [1]
  operandBatchingDims := []
  startIndicesBatchingDims := []
  startIndexMap := [1]
  indexVectorDim := 2
  sliceSizes := ![B, 1]
  wf := wf

/-- The gather read at (b, t, n): row b of the operand at the column the table holds at (t, n, 0), read signed and
    clamped into [0, N - 1]. -/
theorem gather_rows_apply {B N R C w : Nat} (hN : 0 < N)
    (wf : GatherDims.WF ⟨2, ![B, N]⟩ ⟨3, ![R, C, 1]⟩ ⟨3, ![B, R, C]⟩ [0] [1] [] [1] [] 2 ![B, 1])
    (x : (⟨2, ![B, N]⟩ : Shape).Idx → α) (idx : IVec ⟨3, ![R, C, 1]⟩ w) (b : Fin B) (t : Fin R) (n : Fin C) :
    Host.gather (rowDims B N R C wf) x idx (ix3 b t n)
      = x (ix2 b ⟨min (idx (ix3 t n (0 : Fin 1))).toInt.toNat (N - 1), by omega⟩) := by
  have h0 : ((rowDims B N R C wf).operandIdx (ix3 b t n) idx (0 : Fin 2)).val = b.val := by
    show (rowDims B N R C wf).start (ix3 b t n) idx 0 + (rowDims B N R C wf).batchCoord (ix3 b t n) 0
      + (rowDims B N R C wf).offCoord (ix3 b t n) 0 = _
    rw [GatherDims.batchCoord_eq_zero _ _ _ List.not_mem_nil]
    unfold GatherDims.start
    rw [dif_neg (show (0 : Fin 2) ∉ ([1] : List (Fin 2)) by decide)]
    unfold GatherDims.offCoord
    rw [dif_pos ((GatherDims.mem_sKept _ _).mpr ⟨(show (0 : Fin 2) ∉ ([1] : List (Fin 2)) by decide), List.not_mem_nil⟩)]
    simp only [Nat.zero_add, Nat.add_zero]
    rfl
  have h1 : ((rowDims B N R C wf).operandIdx (ix3 b t n) idx (1 : Fin 2)).val
      = min (idx (ix3 t n (0 : Fin 1))).toInt.toNat (N - 1) := by
    show (rowDims B N R C wf).start (ix3 b t n) idx 1 + (rowDims B N R C wf).batchCoord (ix3 b t n) 1
      + (rowDims B N R C wf).offCoord (ix3 b t n) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowDims B N R C wf).startIndexMap from List.mem_singleton.mpr rfl)]
    have hsi : (rowDims B N R C wf).siIdx (ix3 b t n) ⟨List.idxOf (1 : Fin 2) (rowDims B N R C wf).startIndexMap,
        List.idxOf_lt_length_iff.2 (List.mem_singleton.mpr rfl)⟩ = ix3 t n (0 : Fin 1) := by
      funext c; refine Fin.ext ?_
      match c with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact h0
  | ⟨1, _⟩ => exact h1

end Cert.RefGather

end
-- ==== Proof.RefWord.lean ====
/-
  The 32-bit words of the frame index table. Entry (t, n) is 256 t + n computed in 32-bit integers; it is below 2^31, so
  read as a signed integer it is 256 t + n itself, the test "is it negative" fails, and the clamp of a gather into
  [0, 263167] leaves it where it is.
-/
import Idealize.ShloMosaic.Lib.ValueIdx

namespace Cert.RefWord

open Idealize.ShloMosaic Idealize.ShloMosaic.ValueIdx

/-- The product and sum of the table's words are the word of the product and sum. -/
theorem word_eq (t n : Nat) :
    IntOp.addi (IntOp.muli (BitVec.ofNat 32 t) 256#32) (BitVec.ofNat 32 n) = BitVec.ofNat 32 (256 * t + n) := by
  unfold IntOp.addi IntOp.muli
  apply BitVec.eq_of_toNat_eq
  simp only [BitVec.toNat_add, BitVec.toNat_mul, BitVec.toNat_ofNat]
  omega

/-- A word below 2^31 read as a signed integer is itself. -/
theorem toInt_word (k : Nat) (hk : k < 2147483648) : (BitVec.ofNat 32 k).toInt = (k : Int) := by
  rw [BitVec.toInt_eq_toNat_cond, BitVec.toNat_ofNat]
  have : k % 2 ^ 32 = k := Nat.mod_eq_of_lt (by omega)
  rw [this]
  split
  · rfl
  · omega

/-- A word below 2^31 is not negative. -/
theorem slt_zero_word (k : Nat) (hk : k < 2147483648) : IntOp.cmpi .slt (BitVec.ofNat 32 k) 0#32 = 0#1 := by
  unfold IntOp.cmpi
  have h : (BitVec.ofNat 32 k).slt 0#32 = false := by
    rw [BitVec.slt_eq_decide, toInt_word k hk]
    simp
  simp only [h]
  rfl

/-- The table's entry after the "add the length when negative" step is still the word of 256 t + n. -/
theorem entry_eq (t n : Nat) (ht : t < 1025) (hn : n < 1024) :
    Scalar.select
        (IntOp.cmpi .slt (IntOp.addi (IntOp.muli (BitVec.ofNat 32 t) 256#32) (BitVec.ofNat 32 n)) 0#32)
        (IntOp.addi (IntOp.addi (IntOp.muli (BitVec.ofNat 32 t) 256#32) (BitVec.ofNat 32 n)) 263168#32)
        (IntOp.addi (IntOp.muli (BitVec.ofNat 32 t) 256#32) (BitVec.ofNat 32 n))
      = BitVec.ofNat 32 (256 * t + n) := by
  rw [word_eq, slt_zero_word _ (by omega), select_zero]

/-- The gather's clamp leaves the entry where it is. -/
theorem clamp_entry (t n : Nat) (ht : t < 1025) (hn : n < 1024) :
    min (BitVec.ofNat 32 (256 * t + n)).toInt.toNat (263168 - 1) = 256 * t + n := by
  rw [toInt_word _ (by omega)]
  simp only [Int.toNat_natCast]
  omega

end Cert.RefWord
-- ==== Proof.RefSpec.lean ====
/-
  The reference's result is the spectrum's magnitude. Index by index: the table's entry at (t, n) is the word of
  256 t + n, so the gather reads the padded row at the frame position; the contraction is the sum over a frame's
  1024 entries; the transpose and the two slices pick the real and the imaginary row; and the pointwise tail is the
  square root of the sum of the two squares.
-/
import proofs.«150967_j42271068127681_2_alg».proof.Proof.RefTerm
import proofs.«150967_j42271068127681_2_alg».proof.Proof.RefDot
import proofs.«150967_j42271068127681_2_alg».proof.Proof.LibRowGather
import proofs.«150967_j42271068127681_2_alg».proof.Proof.RefWord
import proofs.«150967_j42271068127681_2_alg».proof.Proof.Spectrum
import Idealize.ShloMosaic.Lib.Pipeline.Value

noncomputable section

open scoped BigOperators

namespace Cert.ReferenceIdeal.RefValue

open Cert.ReferenceIdeal Cert.ReferenceIdeal.Gen Idealize.ShloMosaic Idealize.ShloMosaic.ValueIdx

/-- The table's entry at (t, n): the word of 256 t + n. -/
theorem refIdx_apply (t : Fin 1025) (n : Fin 1024) :
    refIdx (ix3 t n (0 : Fin 1)) = BitVec.ofNat 32 (256 * t.val + n.val) := by
  have h : refIdx (ix3 t n (0 : Fin 1))
      = Scalar.select
          (IntOp.cmpi .slt (IntOp.addi (IntOp.muli (BitVec.ofNat 32 t.val) 256#32) (BitVec.ofNat 32 n.val)) 0#32)
          (IntOp.addi (IntOp.addi (IntOp.muli (BitVec.ofNat 32 t.val) 256#32) (BitVec.ofNat 32 n.val)) 263168#32)
          (IntOp.addi (IntOp.muli (BitVec.ofNat 32 t.val) 256#32) (BitVec.ofNat 32 n.val)) := rfl
  rw [h, Cert.RefWord.entry_eq _ _ t.isLt n.isLt]

attribute [local irreducible] Host.gather in
/-- The frames at (b, t, n): the padded row b at the frame position 256 t + n. -/
theorem refFrames_apply (xp : FVec Ideal S32x263168 .f32) (b : Fin 32) (t : Fin 1025) (n : Fin 1024) :
    refFrames xp (ix3 b t n) = xp (ix2 b (Cert.Spectrum.framePos t n)) := by
  unfold refFrames
  refine (Cert.RefGather.gather_rows_apply (B := 32) (N := 263168) (R := 1025) (C := 1024) (by decide)
    gather_S32x263168_S1025x1024x1_S32x1025x1024_0_1_n_n_1_2_321_wf xp refIdx b t n).trans ?_
  refine congrArg (fun p : Fin 263168 => xp (ix2 b p)) (Fin.ext ?_)
  show min (refIdx (ix3 t n (0 : Fin 1))).toInt.toNat (263168 - 1) = 256 * t.val + n.val
  rw [refIdx_apply]
  exact Cert.RefWord.clamp_entry _ _ t.isLt n.isLt

/-- The contracted and transposed array at (b, c, t): row c of the basis against frame t of padded row b. -/
theorem refSpec_apply (xp : FVec Ideal S32x263168 .f32) (basis : FVec Ideal S1026x1024 .f32)
    (b : Fin 32) (c : Fin 1026) (t : Fin 1025) :
    refSpec xp basis (ix3 b c t) = Cert.Spectrum.coeff xp basis b c t := by
  unfold refSpec
  refine (transpose_apply [1, 0, 2] _ transposes_S1026x32x1025_S32x1026x1025_1_0_2 (ix3 b c t) (ix3 c b t)
    (fun a => by match a with | ⟨0, _⟩ => rfl | ⟨1, _⟩ => rfl | ⟨2, _⟩ => rfl)).trans ?_
  refine (dot_apply basis (refFrames xp) c b t).trans ?_
  unfold Cert.Spectrum.coeff
  refine Finset.sum_congr rfl fun k _ => ?_
  rw [refFrames_apply]

/-- The pointwise tail over ANY array of rows: at (b, c, t) the square root of the sum of the squares of row c and
    of row 513 + c. -/
theorem tail_apply (y : FVec Ideal S32x1026x1025 .f32) (b : Fin 32) (c : Fin 513) (t : Fin 1025) :
    Host.sqrt
        (addf
          (mulf (extractStridedSlice S32x513x1025 ![0, 0, 0] y slices_S32x1026x1025_S32x513x1025_0_0_0)
            (extractStridedSlice S32x513x1025 ![0, 0, 0] y slices_S32x1026x1025_S32x513x1025_0_0_0))
          (mulf (extractStridedSlice S32x513x1025 ![0, 513, 0] y slices_S32x1026x1025_S32x513x1025_0_513_0)
            (extractStridedSlice S32x513x1025 ![0, 513, 0] y slices_S32x1026x1025_S32x513x1025_0_513_0)))
        (ix3 b c t)
      = Ideal.sqrt (y (ix3 b (Cert.Spectrum.reRow c) t) * y (ix3 b (Cert.Spectrum.reRow c) t)
          + y (ix3 b (Cert.Spectrum.imRow c) t) * y (ix3 b (Cert.Spectrum.imRow c) t)) := by
  have hre : extractStridedSlice S32x513x1025 ![0, 0, 0] y slices_S32x1026x1025_S32x513x1025_0_0_0 (ix3 b c t)
      = y (ix3 b (Cert.Spectrum.reRow c) t) :=
    extractStridedSlice_apply ![0, 0, 0] y slices_S32x1026x1025_S32x513x1025_0_0_0 (ix3 b c t)
      (ix3 b (Cert.Spectrum.reRow c) t) (fun a => by
        match a with
        | ⟨0, _⟩ => show b.val = 0 + b.val; omega
        | ⟨1, _⟩ => show c.val = 0 + c.val; omega
        | ⟨2, _⟩ => show t.val = 0 + t.val; omega)
  have him : extractStridedSlice S32x513x1025 ![0, 513, 0] y slices_S32x1026x1025_S32x513x1025_0_513_0 (ix3 b c t)
      = y (ix3 b (Cert.Spectrum.imRow c) t) :=
    extractStridedSlice_apply ![0, 513, 0] y slices_S32x1026x1025_S32x513x1025_0_513_0 (ix3 b c t)
      (ix3 b (Cert.Spectrum.imRow c) t) (fun a => by
        match a with
        | ⟨0, _⟩ => show b.val = 0 + b.val; omega
        | ⟨1, _⟩ => show 513 + c.val = 513 + c.val; rfl
        | ⟨2, _⟩ => show t.val = 0 + t.val; omega)
  show FloatOps.hostUnary .sqrt (addf _ _ (ix3 b c t)) = _
  rw [Ideal.hostUnary_sqrt_def, addf_apply, mulf_apply, mulf_apply, hre, him]

/-- The result at (b, c, t): the magnitude. -/
theorem refOut_apply (xp : FVec Ideal S32x263168 .f32) (basis : FVec Ideal S1026x1024 .f32)
    (b : Fin 32) (c : Fin 513) (t : Fin 1025) :
    refOut xp basis (ix3 b c t) = Cert.Spectrum.mag xp basis b c t := by
  unfold refOut Cert.Spectrum.mag
  rw [tail_apply, refSpec_apply, refSpec_apply]

/-- The reference's term is the spectrum's magnitude of the reflect-padded signal. -/
theorem refOut_eq (x : FVec Ideal S32x262144 .f32) (basis : FVec Ideal S1026x1024 .f32) :
    refOut (refPad x) basis
      = Cert.Spectrum.magnitude
          (Cert.Spectrum.reflectPad x slices_S32x262144_S32x512_0_1 concatenates_S32x512_S32x262144_S32x262656_d1
            slices_S32x262656_S32x512_0_262143 concatenates_S32x262656_S32x512_S32x263168_d1) basis := by
  have hp : refPad x
      = Cert.Spectrum.reflectPad x slices_S32x262144_S32x512_0_1 concatenates_S32x512_S32x262144_S32x262656_d1
          slices_S32x262656_S32x512_0_262143 concatenates_S32x262656_S32x512_S32x263168_d1 := by
    unfold refPad refLeft Cert.Spectrum.reflectPad Cert.Spectrum.leftPad
    rfl
  rw [hp]
  generalize Cert.Spectrum.reflectPad x slices_S32x262144_S32x512_0_1 concatenates_S32x512_S32x262144_S32x262656_d1
    slices_S32x262656_S32x512_0_262143 concatenates_S32x262656_S32x512_S32x263168_d1 = xp
  funext i
  obtain ⟨b, c, t, rfl⟩ : ∃ (b : Fin 32) (c : Fin 513) (t : Fin 1025), i = ix3 b c t := ⟨i 0, i 1, i 2, eq_ix3 i⟩
  rw [Cert.Spectrum.magnitude_ix3]
  exact refOut_apply xp basis b c t

end Cert.ReferenceIdeal.RefValue

end
-- ==== Proof.RefValue.lean ====
/-
  The reference's run, stated over the spectrum: every weakly fair execution of the reference terminates with the
  result buffer at the magnitude spectrum of the reflect-padded first argument against the second, and both arguments
  unchanged. The run leaves the reference's term there (the module RefRun); the term is the spectrum's magnitude (the
  module RefSpec).
-/
import proofs.«150967_j42271068127681_2_alg».proof.Proof.RefRun
import proofs.«150967_j42271068127681_2_alg».proof.Proof.RefSpec

noncomputable section

namespace Cert.ReferenceIdeal.RefValue

open Cert.ReferenceIdeal Cert.ReferenceIdeal.Gen Idealize.ShloMosaic Idealize.ShloMosaic.TcCoe Idealize.SL.Sem
open Idealize.ShloMosaic.StableHlo

/-- On every device, from any memory with zero counters: every weakly fair execution of the reference terminates with
    the result buffer at the magnitude spectrum of the reflect-padded first argument against the second, and both
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24)
          = Cert.Spectrum.magnitude
              (Cert.Spectrum.reflectPad (m ((c.tc : Thread nD τ).loc main_arg0)) slices_S32x262144_S32x512_0_1
                concatenates_S32x512_S32x262144_S32x262656_d1 slices_S32x262656_S32x512_0_262143
                concatenates_S32x262656_S32x512_S32x263168_d1)
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refOut_eq _ _), (h c).2⟩) (run_term m ρ)

end Cert.ReferenceIdeal.RefValue

end
-- ==== Proof.lean ====
/-
  The magnitude of a short-time Fourier transform, computed two ways, is one array.

  Both programs reflect-pad each of the 32 signal rows by 512 entries on each side and take, for every frame `t`
  (the 1024 consecutive padded entries from position `256·t`, `t < 1025`), the inner products of the frame with the 513
  real and the 513 imaginary rows of a windowed Fourier basis, and return `sqrt (re² + im²)` at `(row, frequency, frame)`.

  The reference gathers all frames and contracts them with the basis in one product.  The kernel cuts a padded row into
  1028 chunks of 256 entries, lays the chunks side by side (position down, chunk across), and, one signal row per grid
  point, adds four products into an accumulator: columns `256·k … 256·k + 255` of the basis against the chunk matrix shifted
  left by `k` chunks.  Entry `n = 256·k + h` of frame `t` is position `h` of chunk `t + k`, so the four partial sums
  are the one sum over `n` taken in four consecutive blocks.  Over the extended reals this regrouping uses only that
  addition is associative and commutative, so no finiteness of the inputs is needed; narrowing to bf16 is the identity there,
  and both square roots are the same function.

  `Spectrum` states the common result; `KBody`, `KEntry`, `KBlock`, `KHost`, `KFinal` read the kernel's run as that
  result; `RefRun` … `RefValue` read the reference's run as that result.  The two padded signals are the same term up to
  the proofs of the slices' and concatenations' side conditions.
-/
import proofs.«150967_j42271068127681_2_alg».proof.Defs
import proofs.«150967_j42271068127681_2_alg».proof.Proof.Gen.Kernel
import proofs.«150967_j42271068127681_2_alg».proof.Proof.Gen.Kernel.Skeleton
import proofs.«150967_j42271068127681_2_alg».proof.Proof.Gen.Kernel.Launch
import proofs.«150967_j42271068127681_2_alg».proof.Proof.Gen.Kernel.Points
import proofs.«150967_j42271068127681_2_alg».proof.Proof.Gen.Kernel.Frame
import proofs.«150967_j42271068127681_2_alg».proof.Proof.Gen.KernelIdeal
import proofs.«150967_j42271068127681_2_alg».proof.Proof.Gen.KernelIdeal.Skeleton
import proofs.«150967_j42271068127681_2_alg».proof.Proof.Gen.KernelIdeal.Launch
import proofs.«150967_j42271068127681_2_alg».proof.Proof.Gen.KernelIdeal.Points
import proofs.«150967_j42271068127681_2_alg».proof.Proof.Gen.KernelIdeal.Frame
import proofs.«150967_j42271068127681_2_alg».proof.Proof.Gen.KernelIdeal.Value
import proofs.«150967_j42271068127681_2_alg».proof.Proof.Gen.ReferenceIdeal
import proofs.«150967_j42271068127681_2_alg».proof.Proof.Gen.Pre_finite_inputs
import proofs.«150967_j42271068127681_2_alg».proof.Proof.KFinal
import proofs.«150967_j42271068127681_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Reading the kernel over the extended reals rewrote no operation. -/
theorem preserves : Cert.preserves_Kernel_KernelIdeal := trivial

/-- From memories that agree on the signal and the basis, both programs end with the magnitude array of the padded
    signal against the basis. -/
theorem algebraic : Cert.algebraic_KernelIdeal_ReferenceIdeal := by
  intro m ρ m' ρ' _ hagree
  refine ⟨fun c => Cert.KernelIdeal.Stft.result m c, Cert.KernelIdeal.Stft.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
